-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x512 : Shape := ⟨3, ![4, 2048, 512]⟩
abbrev S4x1024x768 : Shape := ⟨3, ![4, 1024, 768]⟩
abbrev S512x512 : Shape := ⟨2, ![512, 512]⟩
abbrev S512x768 : Shape := ⟨2, ![512, 768]⟩
abbrev S512 : Shape := ⟨1, ![512]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S4x1024x768 : S_.BroadcastsInDim S4x1024x768 (![] : Fin 0 → Fin S4x1024x768.rank)
  reducesTo_S4x1024x768_S_d0_1_2 : S4x1024x768.ReducesTo [0, 1, 2] S_
  bcast_S_S512x512 : S_.BroadcastsInDim S512x512 (![] : Fin 0 → Fin S512x512.rank)
  reducesTo_S512x512_S_d0_1 : S512x512.ReducesTo [0, 1] S_
  bcast_S_S512x768 : S_.BroadcastsInDim S512x768 (![] : Fin 0 → Fin S512x768.rank)
  reducesTo_S512x768_S_d0_1 : S512x768.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x768 .f32) (main_arg5 : FVec F S512x512 .f32) (main_arg6 : FVec F S512 .f32) (main_v13 : IVec S_ 1) (main_v16 : IVec S512x768 1) : IVec S_ 1 :=
  let main_c_5 : IVec S_ 1 := constantI S_ 1 1#1
  let main_v17 : IVec S_ 1 := (fun x v => Host.reduce IntOp.andi x v reducesTo_S512x768_S_d0_1 h_S_) main_v16 main_c_5
  let main_v18 : IVec S_ 1 := andi main_v13 main_v17
  let main_v19 : FVec F S512x768 .f32 := Host.absf main_arg4
  let main_cst_6 : FVec F S_ .f32 := constant S_ .f32 0x7F800000#32
  let main_v20 : FVec F S512x768 .f32 := broadcastInDim S512x768 ![] bcast_S_S512x768 main_cst_6
  let main_v21 : IVec S512x768 1 := cmpf .olt main_v19 main_v20
  let main_c_7 : IVec S_ 1 := constantI S_ 1 1#1
  let main_v22 : IVec S_ 1 := (fun x v => Host.reduce IntOp.andi x v reducesTo_S512x768_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S4x2048x512 .f32) (main_arg1 : FVec F S4x1024x768 .f32) (main_arg2 : FVec F S512x512 .f32) (main_arg3 : FVec F S512x768 .f32) (main_arg4 : FVec F S512x768 .f32) (main_arg5 : FVec F S512x512 .f32) (main_arg6 : FVec F S512 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S4x1024x768 .f32 := Host.absf main_arg1
  let main_cst_0 : FVec F S_ .f32 := constant S_ .f32 0x7F800000#32
  let main_v5 : FVec F S4x1024x768 .f32 := broadcastInDim S4x1024x768 ![] bcast_S_S4x1024x768 main_cst_0
  let main_v6 : IVec S4x1024x768 1 := cmpf .olt main_v4 main_v5
  let main_c_1 : IVec S_ 1 := constantI S_ 1 1#1
  let main_v7 : IVec S_ 1 := (fun x v => Host.reduce IntOp.andi x v reducesTo_S4x1024x768_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x768 .f32 := Host.absf main_arg3
  let main_cst_4 : FVec F S_ .f32 := constant S_ .f32 0x7F800000#32
  let main_v15 : FVec F S512x768 .f32 := broadcastInDim S512x768 ![] bcast_S_S512x768 main_cst_4
  let main_v16 : IVec S512x768 1 := cmpf .olt main_v14 main_v15
  fn_part1 (F := F) main_arg4 main_arg5 main_arg6 main_v13 main_v16
-- ==== Kernel.lean ====
abbrev S4x2048x512 : Shape := ⟨3, ![4, 2048, 512]⟩
abbrev S4x1024x768 : Shape := ⟨3, ![4, 1024, 768]⟩
abbrev S512x512 : Shape := ⟨2, ![512, 512]⟩
abbrev S512x768 : Shape := ⟨2, ![512, 768]⟩
abbrev S512 : Shape := ⟨1, ![512]⟩
abbrev S768x512 : Shape := ⟨2, ![768, 512]⟩
abbrev S768x1024 : Shape := ⟨2, ![768, 1024]⟩
abbrev S1x512 : Shape := ⟨2, ![1, 512]⟩
abbrev S8192x512 : Shape := ⟨2, ![8192, 512]⟩
abbrev S4096x768 : Shape := ⟨2, ![4096, 768]⟩
abbrev S1024x512 : Shape := ⟨2, ![1024, 512]⟩
abbrev S4096x1024 : Shape := ⟨2, ![4096, 1024]⟩
abbrev S1024x768 : Shape := ⟨2, ![1024, 768]⟩
abbrev S1024x1024 : Shape := ⟨2, ![1024, 1024]⟩
abbrev S4x1024x1024 : Shape := ⟨3, ![4, 1024, 1024]⟩
abbrev S1x512x512 : Shape := ⟨3, ![1, 512, 512]⟩
abbrev S1x1024x1024 : Shape := ⟨3, ![1, 1024, 1024]⟩
abbrev S512x64 : Shape := ⟨2, ![512, 64]⟩
abbrev S1024x64 : Shape := ⟨2, ![1024, 64]⟩
abbrev S512x1024 : Shape := ⟨2, ![512, 1024]⟩
abbrev S512x1 : Shape := ⟨2, ![512, 1]⟩
abbrev S64x512 : Shape := ⟨2, ![64, 512]⟩

abbrev nBuf : Space → Nat
  | .hbm => 23
  | .vmem => 18
  | .smem => 0
  | _ => 0

abbrev bufTy : (tb : Table) → Fin (tcTables nBuf tb) → BufTy
  | .hbm, ⟨0, _⟩ => ⟨S4x2048x512, .f32⟩
  | .hbm, ⟨1, _⟩ => ⟨S4x1024x768, .f32⟩
  | .hbm, ⟨2, _⟩ => ⟨S512x512, .f32⟩
  | .hbm, ⟨3, _⟩ => ⟨S512x768, .f32⟩
  | .hbm, ⟨4, _⟩ => ⟨S512x768, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S768x512, .f32⟩
  | .hbm, ⟨9, _⟩ => ⟨S768x512, .f32⟩
  | .hbm, ⟨10, _⟩ => ⟨S768x1024, .f32⟩
  | .hbm, ⟨11, _⟩ => ⟨S512x512, .f32⟩
  | .hbm, ⟨12, _⟩ => ⟨S512x512, .bf16⟩
  | .hbm, ⟨13, _⟩ => ⟨S768x1024, .bf16⟩
  | .hbm, ⟨14, _⟩ => ⟨S512x512, .bf16⟩
  | .hbm, ⟨15, _⟩ => ⟨S1x512, .f32⟩
  | .hbm, ⟨16, _⟩ => ⟨S8192x512, .f32⟩
  | .hbm, ⟨17, _⟩ => ⟨S4096x768, .f32⟩
  | .hbm, ⟨18, _⟩ => ⟨S8192x512, .bf16⟩
  | .hbm, ⟨19, _⟩ => ⟨S4096x1024, .bf16⟩
  | .hbm, ⟨20, _⟩ => ⟨S4x2048x512, .bf16⟩
  | .hbm, ⟨21, _⟩ => ⟨S4x1024x1024, .bf16⟩
  | .hbm, ⟨22, _⟩ => ⟨S4x2048x512, .f32⟩
  | .local _ .vmem, ⟨0, _⟩ => ⟨S1024x512, .f32⟩
  | .local _ .vmem, ⟨1, _⟩ => ⟨S1024x512, .f32⟩
  | .local _ .vmem, ⟨2, _⟩ => ⟨S512x512, .bf16⟩
  | .local _ .vmem, ⟨3, _⟩ => ⟨S1024x512, .bf16⟩
  | .local _ .vmem, ⟨4, _⟩ => ⟨S1024x512, .bf16⟩
  | .local _ .vmem, ⟨5, _⟩ => ⟨S1024x768, .f32⟩
  | .local _ .vmem, ⟨6, _⟩ => ⟨S1024x768, .f32⟩
  | .local _ .vmem, ⟨7, _⟩ => ⟨S768x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x512x512, .bf16⟩
  | .local _ .vmem, ⟨11, _⟩ => ⟨S1x512x512, .bf16⟩
  | .local _ .vmem, ⟨12, _⟩ => ⟨S1x1024x1024, .bf16⟩
  | .local _ .vmem, ⟨13, _⟩ => ⟨S1x1024x1024, .bf16⟩
  | .local _ .vmem, ⟨14, _⟩ => ⟨S512x512, .bf16⟩
  | .local _ .vmem, ⟨15, _⟩ => ⟨S1x512, .f32⟩
  | .local _ .vmem, ⟨16, _⟩ => ⟨S1x512x512, .f32⟩
  | .local _ .vmem, ⟨17, _⟩ => ⟨S1x512x512, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![4, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S512x512 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  transposes_S512x512_S512x512_1_0 : S512x512.Transposes [1, 0] S512x512
  transposes_S512x768_S768x512_1_0 : S512x768.Transposes [1, 0] S768x512
  concatenates_S768x512_S768x512_S768x1024_d1 : Shape.Concatenates [S768x512, S768x512] S768x1024 1
  bitsLt_bf16_f32 : FTy.bits .bf16 < FTy.bits .f32
  shapeCasts_S512_S1x512 : S512.ShapeCasts S1x512
  shapeCasts_S4x2048x512_S8192x512 : S4x2048x512.ShapeCasts S8192x512
  shapeCasts_S4x1024x768_S4096x768 : S4x1024x768.ShapeCasts S4096x768
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S1024x512_S1024x512_0_0 : (Rect.unit (s := S1024x512) ![0, 0] S1024x512.size inb_S1024x512_S1024x512_0_0).PackedRows (EltTy.packing .bf16)
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  shapeCasts_S8192x512_S4x2048x512 : S8192x512.ShapeCasts S4x2048x512
  shapeCasts_S4096x1024_S4x1024x1024 : S4096x1024.ShapeCasts S4x1024x1024
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  slices_S1024x1024_o0_0_S1024x512 : S1024x1024.Slices ![0, 0] S1024x512
  slices_S1024x1024_o0_512_S1024x512 : S1024x1024.Slices ![0, 512] S1024x512
  slices_S512x512_o0_0_S512x64 : S512x512.Slices ![0, 0] S512x64
  slices_S1024x512_o0_0_S1024x64 : S1024x512.Slices ![0, 0] S1024x64
  reduces_S512x1024_S512 : S512x1024.Reduces [1] S512
  shapeCasts_S512_S512x1 : S512.ShapeCasts S512x1
  broadcasts_S512x1_S512x1024 : S512x1.Broadcasts S512x1024
  slices_S512x512_o0_0_S64x512 : S512x512.Slices ![0, 0] S64x512
  slices_S512x512_o0_64_S512x64 : S512x512.Slices ![0, 64] S512x64
  slices_S1024x512_o0_64_S1024x64 : S1024x512.Slices ![0, 64] S1024x64
  slices_S512x512_o64_0_S64x512 : S512x512.Slices ![64, 0] S64x512
  slices_S512x512_o0_128_S512x64 : S512x512.Slices ![0, 128] S512x64
  slices_S1024x512_o0_128_S1024x64 : S1024x512.Slices ![0, 128] S1024x64
  slices_S512x512_o128_0_S64x512 : S512x512.Slices ![128, 0] S64x512
  slices_S512x512_o0_192_S512x64 : S512x512.Slices ![0, 192] S512x64
  slices_S1024x512_o0_192_S1024x64 : S1024x512.Slices ![0, 192] S1024x64
  slices_S512x512_o192_0_S64x512 : S512x512.Slices ![192, 0] S64x512
  slices_S512x512_o0_256_S512x64 : S512x512.Slices ![0, 256] S512x64
  slices_S1024x512_o0_256_S1024x64 : S1024x512.Slices ![0, 256] S1024x64
  slices_S512x512_o256_0_S64x512 : S512x512.Slices ![256, 0] S64x512
  slices_S512x512_o0_320_S512x64 : S512x512.Slices ![0, 320] S512x64
  slices_S1024x512_o0_320_S1024x64 : S1024x512.Slices ![0, 320] S1024x64
  slices_S512x512_o320_0_S64x512 : S512x512.Slices ![320, 0] S64x512
  slices_S512x512_o0_384_S512x64 : S512x512.Slices ![0, 384] S512x64
  slices_S1024x512_o0_384_S1024x64 : S1024x512.Slices ![0, 384] S1024x64
  slices_S512x512_o384_0_S64x512 : S512x512.Slices ![384, 0] S64x512
  slices_S512x512_o0_448_S512x64 : S512x512.Slices ![0, 448] S512x64
  slices_S1024x512_o0_448_S1024x64 : S1024x512.Slices ![0, 448] S1024x64
  slices_S512x512_o448_0_S64x512 : S512x512.Slices ![448, 0] S64x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S512x512_S1x512x512 : S512x512.ShapeCasts S1x512x512
  dot_S1024x512_S512x512_S1024x512_1_0_0_1_n_n_wf : DotDims.WF S1024x512 S512x512 S1024x512 [1] [0] [0] [1] [] []
  dot_S1024x768_S768x1024_S1024x1024_1_0_0_1_n_n_wf : DotDims.WF S1024x768 S768x1024 S1024x1024 [1] [0] [0] [1] [] []
  dot_S512x64_S1024x64_S512x1024_1_1_0_0_n_n_wf : DotDims.WF S512x64 S1024x64 S512x1024 [1] [1] [0] [0] [] []
  dot_S512x1024_S1024x64_S512x64_1_0_0_1_n_n_wf : DotDims.WF S512x1024 S1024x64 S512x64 [1] [0] [0] [1] [] []
  dot_S512x64_S64x512_S512x512_1_0_0_1_n_n_wf : DotDims.WF S512x64 S64x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x512.size a
  hwx0_2 : ∀ i : grid0.Coords, EltTy.bits .bf16 = 32 ∨ (Rect.block (s := S8192x512) S1024x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x768.size a ≤ S4096x768.size a
  hwx1_0 : ∀ i : grid1.Coords, EltTy.bits .f32 = 32 ∨ (Rect.block (s := S4096x768) S1024x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x1024.size a ≤ S768x1024.size a
  hwx1_1 : ∀ i : grid1.Coords, EltTy.bits .bf16 = 32 ∨ (Rect.block (s := S768x1024) S768x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x1024.size a
  hwx1_2 : ∀ i : grid1.Coords, EltTy.bits .bf16 = 32 ∨ (Rect.block (s := S4096x1024) S1024x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x512.size a ≤ S4x2048x512.size a
  hwx2_0 : ∀ i : grid2.Coords, EltTy.bits .bf16 = 32 ∨ (Rect.block (s := S4x2048x512) S1x512x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x1024.size a ≤ S4x1024x1024.size a
  hwx2_1 : ∀ i : grid2.Coords, EltTy.bits .bf16 = 32 ∨ (Rect.block (s := S4x1024x1024) S1x1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S512x512.size a
  hwx2_2 : ∀ i : grid2.Coords, EltTy.bits .bf16 = 32 ∨ (Rect.block (s := S512x512) S512x512.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512x512.size a ≤ S4x2048x512.size a
  hwx2_4 : ∀ i : grid2.Coords, EltTy.bits .f32 = 32 ∨ (Rect.block (s := S4x2048x512) S1x512x512.size (cc2_transform_4 i) (hinb2_4 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x768_S768x1024_S1024x1024_1_0_0_1_n_n : DotDims S1024x768 S768x1024 S1024x1024 where
  lhsContracting := [1]
  rhsContracting := [0]
  lhsNonContracting := [0]
  rhsNonContracting := [1]
  lhsBatch := []
  rhsBatch := []
  wf := dot_S1024x768_S768x1024_S1024x1024_1_0_0_1_n_n_wf
def dot_S512x64_S1024x64_S512x1024_1_1_0_0_n_n : DotDims S512x64 S1024x64 S512x1024 where
  lhsContracting := [1]
  rhsContracting := [1]
  lhsNonContracting := [0]
  rhsNonContracting := [0]
  lhsBatch := []
  rhsBatch := []
  wf := dot_S512x64_S1024x64_S512x1024_1_1_0_0_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf

abbrev win0_0 : Pipeline.Window sig grid0 :=
  Pipeline.Window.ofSpec (Memref.whole main_v9) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S768x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v13) S1x512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1x1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S512x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v15) S1x512x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4x2048x512 : Shape := ⟨3, ![4, 2048, 512]⟩
abbrev S4x1024x768 : Shape := ⟨3, ![4, 1024, 768]⟩
abbrev S512x512 : Shape := ⟨2, ![512, 512]⟩
abbrev S512x768 : Shape := ⟨2, ![512, 768]⟩
abbrev S512 : Shape := ⟨1, ![512]⟩
abbrev S4x1024x512 : Shape := ⟨3, ![4, 1024, 512]⟩
abbrev S4x2048x8x64 : Shape := ⟨4, ![4, 2048, 8, 64]⟩
abbrev S4x8x2048x64 : Shape := ⟨4, ![4, 8, 2048, 64]⟩
abbrev S4x1024x8x64 : Shape := ⟨4, ![4, 1024, 8, 64]⟩
abbrev S4x8x1024x64 : Shape := ⟨4, ![4, 8, 1024, 64]⟩
abbrev S4x8x2048x1024 : Shape := ⟨4, ![4, 8, 2048, 1024]⟩
abbrev S_ : Shape := ⟨0, ![]⟩
abbrev S4x8x2048 : Shape := ⟨3, ![4, 8, 2048]⟩
abbrev S4x8x2048x1 : Shape := ⟨4, ![4, 8, 2048, 1]⟩
abbrev S1x1x512 : Shape := ⟨3, ![1, 1, 512]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x1024x768, .f32⟩
  | .hbm, ⟨2, _⟩ => ⟨S512x512, .f32⟩
  | .hbm, ⟨3, _⟩ => ⟨S512x768, .f32⟩
  | .hbm, ⟨4, _⟩ => ⟨S512x768, .f32⟩
  | .hbm, ⟨5, _⟩ => ⟨S512x512, .f32⟩
  | .hbm, ⟨6, _⟩ => ⟨S512, .f32⟩
  | .hbm, ⟨7, _⟩ => ⟨S4x2048x512, .f32⟩
  | .hbm, ⟨8, _⟩ => ⟨S4x1024x512, .f32⟩
  | .hbm, ⟨9, _⟩ => ⟨S4x1024x512, .f32⟩
  | .hbm, ⟨10, _⟩ => ⟨S4x2048x8x64, .f32⟩
  | .hbm, ⟨11, _⟩ => ⟨S4x8x2048x64, .f32⟩
  | .hbm, ⟨12, _⟩ => ⟨S4x1024x8x64, .f32⟩
  | .hbm, ⟨13, _⟩ => ⟨S4x8x1024x64, .f32⟩
  | .hbm, ⟨14, _⟩ => ⟨S4x1024x8x64, .f32⟩
  | .hbm, ⟨15, _⟩ => ⟨S4x8x1024x64, .f32⟩
  | .hbm, ⟨16, _⟩ => ⟨S4x8x2048x1024, .f32⟩
  | .hbm, ⟨17, _⟩ => ⟨S_, .f32⟩
  | .hbm, ⟨18, _⟩ => ⟨S4x8x2048x1024, .f32⟩
  | .hbm, ⟨19, _⟩ => ⟨S4x8x2048x1024, .f32⟩
  | .hbm, ⟨20, _⟩ => ⟨S_, .f32⟩
  | .hbm, ⟨21, _⟩ => ⟨S4x8x2048, .f32⟩
  | .hbm, ⟨22, _⟩ => ⟨S_, .f32⟩
  | .hbm, ⟨23, _⟩ => ⟨S4x8x2048, .f32⟩
  | .hbm, ⟨24, _⟩ => ⟨S4x8x2048, .f32⟩
  | .hbm, ⟨25, _⟩ => ⟨S4x8x2048x1, .f32⟩
  | .hbm, ⟨26, _⟩ => ⟨S4x8x2048x1024, .f32⟩
  | .hbm, ⟨27, _⟩ => ⟨S4x8x2048x1024, .f32⟩
  | .hbm, ⟨28, _⟩ => ⟨S4x8x2048x1024, .f32⟩
  | .hbm, ⟨29, _⟩ => ⟨S_, .f32⟩
  | .hbm, ⟨30, _⟩ => ⟨S4x8x2048, .f32⟩
  | .hbm, ⟨31, _⟩ => ⟨S4x8x2048x1, .f32⟩
  | .hbm, ⟨32, _⟩ => ⟨S4x8x2048x1024, .f32⟩
  | .hbm, ⟨33, _⟩ => ⟨S4x8x2048x1024, .f32⟩
  | .hbm, ⟨34, _⟩ => ⟨S4x8x2048x64, .f32⟩
  | .hbm, ⟨35, _⟩ => ⟨S4x2048x8x64, .f32⟩
  | .hbm, ⟨36, _⟩ => ⟨S4x2048x512, .f32⟩
  | .hbm, ⟨37, _⟩ => ⟨S4x2048x512, .f32⟩
  | .hbm, ⟨38, _⟩ => ⟨S1x1x512, .f32⟩
  | .hbm, ⟨39, _⟩ => ⟨S4x2048x512, .f32⟩
  | .hbm, ⟨40, _⟩ => ⟨S4x2048x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  shapeCasts_S4x2048x512_S4x2048x8x64 : S4x2048x512.ShapeCasts S4x2048x8x64
  transposes_S4x2048x8x64_S4x8x2048x64_0_2_1_3 : S4x2048x8x64.Transposes [0, 2, 1, 3] S4x8x2048x64
  shapeCasts_S4x1024x512_S4x1024x8x64 : S4x1024x512.ShapeCasts S4x1024x8x64
  transposes_S4x1024x8x64_S4x8x1024x64_0_2_1_3 : S4x1024x8x64.Transposes [0, 2, 1, 3] S4x8x1024x64
  bcast_S_S4x8x2048x1024 : S_.BroadcastsInDim S4x8x2048x1024 (![] : Fin 0 → Fin S4x8x2048x1024.rank)
  reducesTo_S4x8x2048x1024_S4x8x2048_d3 : S4x8x2048x1024.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x1024_0_1_2_3 : S4x8x2048x1.BroadcastsInDim S4x8x2048x1024 (![0, 1, 2, 3] : Fin 4 → Fin S4x8x2048x1024.rank)
  transposes_S4x8x2048x64_S4x2048x8x64_0_2_1_3 : S4x8x2048x64.Transposes [0, 2, 1, 3] S4x2048x8x64
  shapeCasts_S4x2048x8x64_S4x2048x512 : S4x2048x8x64.ShapeCasts S4x2048x512
  bcast_S512_S1x1x512_2 : S512.BroadcastsInDim S1x1x512 (![2] : Fin 1 → Fin S1x1x512.rank)
  bcast_S1x1x512_S4x2048x512_0_1_2 : S1x1x512.BroadcastsInDim S4x2048x512 (![0, 1, 2] : Fin 3 → Fin S4x2048x512.rank)
  dot_S4x2048x512_S512x512_S4x2048x512_2_1_01_0_n_n_wf : DotDims.WF S4x2048x512 S512x512 S4x2048x512 [2] [1] [0, 1] [0] [] []
  dot_S4x1024x768_S512x768_S4x1024x512_2_1_01_0_n_n_wf : DotDims.WF S4x1024x768 S512x768 S4x1024x512 [2] [1] [0, 1] [0] [] []
  dot_S4x8x2048x64_S4x8x1024x64_S4x8x2048x1024_3_3_2_2_01_01_wf : DotDims.WF S4x8x2048x64 S4x8x1024x64 S4x8x2048x1024 [3] [3] [2] [2] [0, 1] [0, 1]
  dot_S4x8x2048x1024_S4x8x1024x64_S4x8x2048x64_3_2_2_3_01_01_wf : DotDims.WF S4x8x2048x1024 S4x8x1024x64 S4x8x2048x64 [3] [2] [2] [3] [0, 1] [0, 1]

variable [Facts₀]

def dot_S4x2048x512_S512x512_S4x2048x512_2_1_01_0_n_n : DotDims S4x2048x512 S512x512 S4x2048x512 where
  lhsContracting := [2]
  rhsContracting := [1]
  lhsNonContracting := [0, 1]
  rhsNonContracting := [0]
  lhsBatch := []
  rhsBatch := []
  wf := dot_S4x2048x512_S512x512_S4x2048x512_2_1_01_0_n_n_wf
def dot_S4x1024x768_S512x768_S4x1024x512_2_1_01_0_n_n : DotDims S4x1024x768 S512x768 S4x1024x512 where
  lhsContracting := [2]
  rhsContracting := [1]
  lhsNonContracting := [0, 1]
  rhsNonContracting := [0]
  lhsBatch := []
  rhsBatch := []
  wf := dot_S4x1024x768_S512x768_S4x1024x512_2_1_01_0_n_n_wf
def dot_S4x8x2048x64_S4x8x1024x64_S4x8x2048x1024_3_3_2_2_01_01 : DotDims S4x8x2048x64 S4x8x1024x64 S4x8x2048x1024 where
  lhsContracting := [3]
  rhsContracting := [3]
  lhsNonContracting := [2]
  rhsNonContracting := [2]
  lhsBatch := [0, 1]
  rhsBatch := [0, 1]
  wf := dot_S4x8x2048x64_S4x8x1024x64_S4x8x2048x1024_3_3_2_2_01_01_wf
def dot_S4x8x2048x1024_S4x8x1024x64_S4x8x2048x64_3_2_2_3_01_01 : DotDims S4x8x2048x1024 S4x8x1024x64 S4x8x2048x64 where
  lhsContracting := [3]
  rhsContracting := [2]
  lhsNonContracting := [2]
  rhsNonContracting := [3]
  lhsBatch := [0, 1]
  rhsBatch := [0, 1]
  wf := dot_S4x8x2048x1024_S4x8x1024x64_S4x8x2048x64_3_2_2_3_01_01_wf

class Facts : Prop extends Facts₀ where

variable [Facts]
-- ==== Proof.KernelRun.lean ====
/-
  The idealized kernel's run with its result array named.

  The program is five segments: host operations, the query projection, the key/value projection, two host
  reshapes, and the attention kernel. The launch theorem for such a chain of segments leaves every unscoped buffer
  of the TensorCore at the last boundary's contents, the fold `W5` of the segments over the launch memory. The frame
  keeps of this only the seven argument arrays; here the same launch is read once more at the result buffer as
  well, so that the result array after the run is `W5` at that buffer.
-/
import proofs.«105732_j13159779795222_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents at its buffer, and the seven argument arrays end as launched. -/
theorem run_named : θ_run defs (onTc (τ := τ) (main (F := F))) ⟨m, fun _ => 0, ρ⟩ (fun r => ∀ c : Dev nD,
      r.2.mem ((c.tc : Thread nD τ).loc main_v15) = W5 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v15 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.Run

end
-- ==== Proof.LibKeepdimsLayout.lean ====
/-
  Layout operations, lane sums and a plain two-axis matrix product read at an index given by coordinates, for the
  keepdims shapes a pairwise network meets: a trailing or middle unit axis added by a shape cast, two leading unit axes
  added or dropped, two leading axes merged into one and a trailing axis split in two (both row-major), a broadcast
  along one or two unit axes of a rank-3 array, a sum over the first axis of a matrix and over the last axis of a
  rank-3 array, and a matrix product into a zero accumulator as the sum over the contracted coordinate.
-/
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayLayout

open Idealize.ShloMosaic Idealize.ShloMosaic.ValueIdx

variable {α : Type}

/-! ## Shape casts that add or drop unit axes -/

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads, at `(i, u, d)`, the operand at `(i, d)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (d : Fin c) :
    shapeCast ⟨3, ![a, 1, c]⟩ x h (ix3 i u d) = x (ix2 i d) :=
  shapeCast_apply x h _ _ (by
    have hu : u.val = 0 := by omega
    rw [Shape.rowMajor_val_three, Shape.rowMajor_val_two]
    show i.val * c + d.val = (i.val * 1 + u.val) * c + d.val
    rw [hu, Nat.mul_one, Nat.add_zero])

/-- A vector `[c]` cast to `[1, 1, c]` reads, at `(u, v, d)`, the operand at `d`. -/
theorem shapeCast_c_11c_apply {c : ℕ} (x : (⟨1, ![c]⟩ : Shape).Idx → α)
    (h : (⟨1, ![c]⟩ : Shape).ShapeCasts ⟨3, ![1, 1, c]⟩) (u v : Fin 1) (d : Fin c) :
    shapeCast ⟨3, ![1, 1, c]⟩ x h (ix3 u v d) = x (ix1 d) :=
  shapeCast_apply x h _ _ (by
    have hu : u.val = 0 := by omega
    have hv : v.val = 0 := by omega
    rw [Shape.rowMajor_val_three, Shape.rowMajor_val_one]
    show d.val = (u.val * 1 + v.val) * c + d.val
    simp [hu, hv])

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp [hu, hv])

/-! ## Row-major merges and splits -/

/-- An `[a, b, c]` array cast to `[n, c]` with the two leading axes merged reads, at `(r, d)` with `r = i * b + j`,
    the operand at `(i, j, d)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (d : Fin c) (r : Fin n)
    (hr : r.val = i.val * b + j.val) :
    shapeCast ⟨2, ![n, c]⟩ x h (ix2 r d) = x (ix3 i j d) :=
  shapeCast_apply x h _ _ (by
    rw [Shape.rowMajor_val_three, Shape.rowMajor_val_two]
    show (i.val * b + j.val) * c + d.val = r.val * c + d.val
    rw [hr])

/-- An `[n, c]` array cast to `[a, m]` with `n = a * b` rows regrouped `b` to a row, so `m = b * c`, reads, at
    `(i, q)` with `q = j * c + o`, the operand at `(r, o)` with `r = i * b + j`. -/
theorem shapeCast_nc_am_apply {a b c n m : ℕ} (x : (⟨2, ![n, c]⟩ : Shape).Idx → α)
    (h : (⟨2, ![n, c]⟩ : Shape).ShapeCasts ⟨2, ![a, m]⟩) (hm : m = b * c) (i : Fin a) (j : Fin b) (o : Fin c)
    (r : Fin n) (q : Fin m) (hr : r.val = i.val * b + j.val) (hq : q.val = j.val * c + o.val) :
    shapeCast ⟨2, ![a, m]⟩ x h (ix2 i q) = x (ix2 r o) :=
  shapeCast_apply x h _ _ (by
    rw [Shape.rowMajor_val_two, Shape.rowMajor_val_two]
    show r.val * c + o.val = i.val * m + q.val
    rw [hr, hq, hm]
    ring)

/-! ## Broadcasts of a rank-3 array along its unit axes -/

/-- An `[a, 1, c]` array broadcast to `[a, b, c]` reads, at `(i, j, d)`, the operand at `(i, 0, d)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (d : Fin c) :
    broadcastTo ⟨3, ![a, b, c]⟩ v h (ix3 i j d) = v (ix3 i (0 : Fin 1) d) := by
  refine broadcastTo_apply v h (ix3 i j d) (ix3 i (0 : Fin 1) d) fun ax => ?_
  match ax with
  | ⟨0, _⟩ =>
    show i.val = if a = 1 then 0 else i.val
    split
    · have := i.isLt; omega
    · rfl
  | ⟨1, _⟩ => rfl
  | ⟨2, _⟩ =>
    show d.val = if c = 1 then 0 else d.val
    split
    · have := d.isLt; omega
    · rfl

/-- A `[1, b, c]` array broadcast to `[a, b, c]` reads, at `(i, j, d)`, the operand at `(0, j, d)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (d : Fin c) :
    broadcastTo ⟨3, ![a, b, c]⟩ v h (ix3 i j d) = v (ix3 (0 : Fin 1) j d) := by
  refine broadcastTo_apply v h (ix3 i j d) (ix3 (0 : Fin 1) j d) fun ax => ?_
  match ax with
  | ⟨0, _⟩ => rfl
  | ⟨1, _⟩ =>
    show j.val = if b = 1 then 0 else j.val
    split
    · have := j.isLt; omega
    · rfl
  | ⟨2, _⟩ =>
    show d.val = if c = 1 then 0 else d.val
    split
    · have := d.isLt; omega
    · rfl

/-- A `[1, 1, c]` array broadcast to `[a, b, c]` reads, at `(i, j, d)`, the operand at `(0, 0, d)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (d : Fin c) :
    broadcastTo ⟨3, ![a, b, c]⟩ v h (ix3 i j d) = v (ix3 (0 : Fin 1) (0 : Fin 1) d) := by
  refine broadcastTo_apply v h (ix3 i j d) (ix3 (0 : Fin 1) (0 : Fin 1) d) fun ax => ?_
  match ax with
  | ⟨0, _⟩ => rfl
  | ⟨1, _⟩ => rfl
  | ⟨2, _⟩ =>
    show d.val = if c = 1 then 0 else d.val
    split
    · have := d.isLt; omega
    · rfl

/-- An `[a, b, 1]` array broadcast to `[a, b, c]` reads, at `(i, j, d)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (d : Fin c) :
    broadcastTo ⟨3, ![a, b, c]⟩ v h (ix3 i j d) = v (ix3 i j (0 : Fin 1)) := by
  refine broadcastTo_apply v h (ix3 i j d) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## Sums over one axis -/

/-- The sum of an `[a, c]` matrix over its rows reads, at `f`, the sum over `r` of the matrix at `(r, f)`. -/
theorem rowSum_apply {a c : ℕ} (src : FVec Ideal ⟨2, ![a, c]⟩ .f32)
    (h : (⟨2, ![a, c]⟩ : Shape).Reduces [0] ⟨1, ![c]⟩) (hφ : FKind.Formats .f32)
    (hacc : (0x00000000#32 : BitVec 32) = 0x00000000#32) (f : Fin c) :
    multiReduction .add [0] ⟨1, ![c]⟩ src 0x00000000#32 h hφ hacc (ix1 f) = ∑ r : Fin a, src (ix2 r f) := by
  refine (Ideal.multiReduction_add_single src 0x00000000#32 h hφ hacc (ix1 f)).trans ?_
  refine Finset.sum_congr rfl fun r _ => congrArg src (funext fun ax => Fin.ext ?_)
  match ax with
  | ⟨0, _⟩ => rfl
  | ⟨1, _⟩ => rfl

/-- The sum of an `[a, b, c]` array over its last axis reads, at `(i, j)`, the sum over `d` of the array at
    `(i, j, d)`. -/
theorem laneSum_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ d : Fin c, src (ix3 i j d) := by
  refine (Ideal.multiReduction_add_single src 0x00000000#32 h hφ hacc (ix2 i j)).trans ?_
  refine Finset.sum_congr rfl fun d _ => congrArg src (funext fun ax => Fin.ext ?_)
  match ax with
  | ⟨0, _⟩ => rfl
  | ⟨1, _⟩ => rfl
  | ⟨2, _⟩ => rfl

/-! ## A plain matrix product into a zero accumulator -/

/-- For dimension numbers that contract the left operand's columns with the right operand's rows (`hl0` … `hr1`: the
    operand indices at an output index and a contraction position, read off the numbers), an `[m, k] · [k, n]`
    product into the zero splat reads, at `(r, c)`, the sum over `f` of left `(r, f)` times right `(f, c)`. -/
theorem matmul_zero_ix2_apply {m k n : ℕ} {φ₁ φ₂ : FTy}
    (D : DotDims ⟨2, ![m, k]⟩ ⟨2, ![k, n]⟩ ⟨2, ![m, n]⟩) (hrank : D.contr.rank = 1)
    (hsize : D.contr.size ⟨0, by omega⟩ = k)
    (hl0 : ∀ (j : (⟨2, ![m, n]⟩ : Shape).Idx) (q : D.contr.Idx), (D.lhsIdx j q 0).val = (j 0).val)
    (hl1 : ∀ (j : (⟨2, ![m, n]⟩ : Shape).Idx) (q : D.contr.Idx), (D.lhsIdx j q 1).val = (q ⟨0, by omega⟩).val)
    (hr0 : ∀ (j : (⟨2, ![m, n]⟩ : Shape).Idx) (q : D.contr.Idx), (D.rhsIdx j q 0).val = (q ⟨0, by omega⟩).val)
    (hr1 : ∀ (j : (⟨2, ![m, n]⟩ : Shape).Idx) (q : D.contr.Idx), (D.rhsIdx j q 1).val = (j 1).val)
    (prec : Option ContractPrecision) (lhs : FVec Ideal ⟨2, ![m, k]⟩ φ₁) (rhs : FVec Ideal ⟨2, ![k, n]⟩ φ₂)
    (r : Fin m) (c : Fin n) :
    matmul D prec lhs rhs (constant (F := Ideal) ⟨2, ![m, n]⟩ .f32 0x00000000#32) (ix2 r c)
      = ∑ f : Fin k, lhs (ix2 r f) * rhs (ix2 f c) := by
  refine (Ideal.matmul_constant_zero_apply D prec lhs rhs (ix2 r c)).trans ?_
  rw [← Equiv.sum_comp (contrEquiv1 D k hrank hsize).symm]
  refine Finset.sum_congr rfl fun f _ => ?_
  have hf := contrEquiv1_symm_val D k hrank hsize f
  have el : D.lhsIdx (ix2 r c) ((contrEquiv1 D k hrank hsize).symm f) = ix2 r f := funext fun ax => Fin.ext (by
    match ax with
    | ⟨0, _⟩ => exact hl0 _ _
    | ⟨1, _⟩ => exact (hl1 _ _).trans hf)
  have er : D.rhsIdx (ix2 r c) ((contrEquiv1 D k hrank hsize).symm f) = ix2 f c := funext fun ax => Fin.ext (by
    match ax with
    | ⟨0, _⟩ => exact (hr0 _ _).trans hf
    | ⟨1, _⟩ => exact hr1 _ _)
  rw [el, er]

end Cert.KernelIdeal.PayLayout

end
-- ==== Proof.LibProjLayout.lean ====
/-
  Layout operations and two matrix products read at an index given by coordinates, for a body that flattens a block of
  `a` matrices into one tall matrix, multiplies, and cuts the result back: a row-major split of the leading axis
  (`[n, c] → [a, b, c]` with `n = a · b`), a run of lanes cut out of the last axis of a rank-3 array, a product of two
  matrices contracted over the LAST axis of both (`[m, k] · [n, k]ᵀ`) into a zero accumulator, and the same product
  batched over a shared leading axis (`[a, m, k] · [a, n, k]ᵀ`), each as the sum over the contracted coordinate.
-/
import Idealize.ShloMosaic.Lib.ValueIdx
import Idealize.ShloMosaic.Lib.Pipeline.Value
import Idealize.ShloMosaic.PureOps.Ideal.Laws

noncomputable section

namespace Cert.ProjLayout

open Idealize.ShloMosaic Idealize.ShloMosaic.ValueIdx

variable {α : Type}

/-! ## The leading axis split, and lanes cut out -/

/-- An `[n, c]` array cast to `[a, b, c]` with `n = a · b` reads, at `(i, j, d)`, the operand at `(r, d)` with
    `r = i · b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (d : Fin c) (r : Fin n)
    (hr : r.val = i.val * b + j.val) :
    shapeCast ⟨3, ![a, b, c]⟩ x h (ix3 i j d) = x (ix2 r d) :=
  shapeCast_apply x h _ _ (by
    rw [Shape.rowMajor_val_three, Shape.rowMajor_val_two]
    show r.val * c + d.val = (i.val * b + j.val) * c + d.val
    rw [hr])

/-- Lanes `o … o + c - 1` cut out of the last axis of an `[a, b, c']` array read, at `(i, j, d)`, the operand at
    `(i, j, q)` with `q = o + d`. -/
theorem laneSlice_apply {a b c c' o : ℕ} (x : (⟨3, ![a, b, c']⟩ : Shape).Idx → α)
    (h : (⟨3, ![a, b, c']⟩ : Shape).Slices ![0, 0, o] ⟨3, ![a, b, c]⟩) (i : Fin a) (j : Fin b) (d : Fin c) (q : Fin c')
    (hq : q.val = o + d.val) :
    extractStridedSlice ⟨3, ![a, b, c]⟩ ![0, 0, o] x h (ix3 i j d) = x (ix3 i j q) :=
  extractStridedSlice_apply _ x h _ _ fun ax => by
    match ax with
    | ⟨0, _⟩ => show i.val = 0 + i.val; omega
    | ⟨1, _⟩ => show j.val = 0 + j.val; omega
    | ⟨2, _⟩ => show q.val = o + d.val; exact hq

/-! ## Products contracted over the last axis of both operands -/

/-- For dimension numbers that contract the columns of both operands (`hl0` … `hr1`: the operand indices at an output
    index and a contraction position, read off the numbers), an `[m, k] · [n, k]ᵀ` product into the zero splat reads, at
    `(r, c)`, the sum over `f` of left `(r, f)` times right `(c, f)`. -/
theorem matmul_zero_rows_apply {m k n : ℕ} {φ₁ φ₂ : FTy}
    (D : DotDims ⟨2, ![m, k]⟩ ⟨2, ![n, k]⟩ ⟨2, ![m, n]⟩) (hrank : D.contr.rank = 1)
    (hsize : D.contr.size ⟨0, by omega⟩ = k)
    (hl0 : ∀ (j : (⟨2, ![m, n]⟩ : Shape).Idx) (q : D.contr.Idx), (D.lhsIdx j q 0).val = (j 0).val)
    (hl1 : ∀ (j : (⟨2, ![m, n]⟩ : Shape).Idx) (q : D.contr.Idx), (D.lhsIdx j q 1).val = (q ⟨0, by omega⟩).val)
    (hr0 : ∀ (j : (⟨2, ![m, n]⟩ : Shape).Idx) (q : D.contr.Idx), (D.rhsIdx j q 0).val = (j 1).val)
    (hr1 : ∀ (j : (⟨2, ![m, n]⟩ : Shape).Idx) (q : D.contr.Idx), (D.rhsIdx j q 1).val = (q ⟨0, by omega⟩).val)
    (prec : Option ContractPrecision) (lhs : FVec Ideal ⟨2, ![m, k]⟩ φ₁) (rhs : FVec Ideal ⟨2, ![n, k]⟩ φ₂)
    (r : Fin m) (c : Fin n) :
    matmul D prec lhs rhs (constant (F := Ideal) ⟨2, ![m, n]⟩ .f32 0x00000000#32) (ix2 r c)
      = ∑ f : Fin k, lhs (ix2 r f) * rhs (ix2 c f) := by
  refine (Ideal.matmul_constant_zero_apply D prec lhs rhs (ix2 r c)).trans ?_
  rw [← Equiv.sum_comp (contrEquiv1 D k hrank hsize).symm]
  refine Finset.sum_congr rfl fun f _ => ?_
  have hf := contrEquiv1_symm_val D k hrank hsize f
  have el : D.lhsIdx (ix2 r c) ((contrEquiv1 D k hrank hsize).symm f) = ix2 r f := funext fun ax => Fin.ext (by
    match ax with
    | ⟨0, _⟩ => exact hl0 _ _
    | ⟨1, _⟩ => exact (hl1 _ _).trans hf)
  have er : D.rhsIdx (ix2 r c) ((contrEquiv1 D k hrank hsize).symm f) = ix2 c f := funext fun ax => Fin.ext (by
    match ax with
    | ⟨0, _⟩ => exact hr0 _ _
    | ⟨1, _⟩ => exact (hr1 _ _).trans hf)
  rw [el, er]

/-- The same product batched over a shared leading axis: `[a, m, k] · [a, n, k]ᵀ` into the zero splat reads, at
    `(b, r, c)`, the sum over `f` of left `(b, r, f)` times right `(b, c, f)`. -/
theorem batchMatmul_zero_rows_apply {a m k n : ℕ} {φ₁ φ₂ : FTy}
    (D : DotDims ⟨3, ![a, m, k]⟩ ⟨3, ![a, n, k]⟩ ⟨3, ![a, m, n]⟩) (hrank : D.contr.rank = 1)
    (hsize : D.contr.size ⟨0, by omega⟩ = k)
    (hl0 : ∀ (j : (⟨3, ![a, m, n]⟩ : Shape).Idx) (q : D.contr.Idx), (D.lhsIdx j q 0).val = (j 0).val)
    (hl1 : ∀ (j : (⟨3, ![a, m, n]⟩ : Shape).Idx) (q : D.contr.Idx), (D.lhsIdx j q 1).val = (j 1).val)
    (hl2 : ∀ (j : (⟨3, ![a, m, n]⟩ : Shape).Idx) (q : D.contr.Idx), (D.lhsIdx j q 2).val = (q ⟨0, by omega⟩).val)
    (hr0 : ∀ (j : (⟨3, ![a, m, n]⟩ : Shape).Idx) (q : D.contr.Idx), (D.rhsIdx j q 0).val = (j 0).val)
    (hr1 : ∀ (j : (⟨3, ![a, m, n]⟩ : Shape).Idx) (q : D.contr.Idx), (D.rhsIdx j q 1).val = (j 2).val)
    (hr2 : ∀ (j : (⟨3, ![a, m, n]⟩ : Shape).Idx) (q : D.contr.Idx), (D.rhsIdx j q 2).val = (q ⟨0, by omega⟩).val)
    (prec : Option ContractPrecision) (lhs : FVec Ideal ⟨3, ![a, m, k]⟩ φ₁) (rhs : FVec Ideal ⟨3, ![a, n, k]⟩ φ₂)
    (b : Fin a) (r : Fin m) (c : Fin n) :
    matmul D prec lhs rhs (constant (F := Ideal) ⟨3, ![a, m, n]⟩ .f32 0x00000000#32) (ix3 b r c)
      = ∑ f : Fin k, lhs (ix3 b r f) * rhs (ix3 b c f) := by
  refine (Ideal.matmul_constant_zero_apply D prec lhs rhs (ix3 b r c)).trans ?_
  rw [← Equiv.sum_comp (contrEquiv1 D k hrank hsize).symm]
  refine Finset.sum_congr rfl fun f _ => ?_
  have hf := contrEquiv1_symm_val D k hrank hsize f
  have el : D.lhsIdx (ix3 b r c) ((contrEquiv1 D k hrank hsize).symm f) = ix3 b r f := funext fun ax => Fin.ext (by
    match ax with
    | ⟨0, _⟩ => exact hl0 _ _
    | ⟨1, _⟩ => exact hl1 _ _
    | ⟨2, _⟩ => exact (hl2 _ _).trans hf)
  have er : D.rhsIdx (ix3 b r c) ((contrEquiv1 D k hrank hsize).symm f) = ix3 b c f := funext fun ax => Fin.ext (by
    match ax with
    | ⟨0, _⟩ => exact hr0 _ _
    | ⟨1, _⟩ => exact hr1 _ _
    | ⟨2, _⟩ => exact (hr2 _ _).trans hf)
  rw [el, er]

end Cert.ProjLayout

end
-- ==== Proof.DotFacts.lean ====
/-
  The five matrix products of the kernel bodies, each into a zero accumulator, read at an entry over the extended
  reals: the two projections (activations times transposed weights), a head's scores (query rows times key rows,
  both contracted over their 64 columns), a head's output (weights times values) and a head's share of the output
  projection (head output times the head's 64 rows of the transposed output weights).
-/
import proofs.«105732_j13159779795222_2_alg».proof.Proof.Gen.KernelIdeal
import proofs.«105732_j13159779795222_2_alg».proof.Proof.LibKeepdimsLayout
import proofs.«105732_j13159779795222_2_alg».proof.Proof.LibProjLayout

noncomputable section

namespace Cert.KernelIdeal.DotFacts

open Cert.KernelIdeal Idealize.ShloMosaic Idealize.ShloMosaic.ValueIdx

/-- proj_q_apply: an `[1024, 512] · [512, 512]` product into the zero accumulator, entry `(r, c)`. -/
theorem proj_q_apply (lhs : FVec Ideal S1024x512 .bf16) (rhs : FVec Ideal S512x512 .bf16) (r : Fin 1024) (c : Fin 512) :
    matmul dot_S1024x512_S512x512_S1024x512_1_0_0_1_n_n none lhs rhs (constant (F := Ideal) S1024x512 .f32 0x00000000#32) (ix2 r c)
      = ∑ f : Fin 512, lhs (ix2 r f) * rhs (ix2 f c) :=
  Cert.KernelIdeal.PayLayout.matmul_zero_ix2_apply dot_S1024x512_S512x512_S1024x512_1_0_0_1_n_n rfl rfl
    (fun j q => by
      unfold DotDims.lhsIdx
      rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
      rfl)
    (fun j q => dot_S1024x512_S512x512_S1024x512_1_0_0_1_n_n.lhsIdx_val_of_single rfl j q)
    (fun j q => dot_S1024x512_S512x512_S1024x512_1_0_0_1_n_n.rhsIdx_val_of_single rfl j q)
    (fun j q => by
      unfold DotDims.rhsIdx
      rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
      rfl)
    none lhs rhs r c

/-- proj_kv_apply: an `[1024, 768] · [768, 1024]` product into the zero accumulator, entry `(r, c)`. -/
theorem proj_kv_apply (lhs : FVec Ideal S1024x768 .bf16) (rhs : FVec Ideal S768x1024 .bf16) (r : Fin 1024) (c : Fin 1024) :
    matmul dot_S1024x768_S768x1024_S1024x1024_1_0_0_1_n_n none lhs rhs (constant (F := Ideal) S1024x1024 .f32 0x00000000#32) (ix2 r c)
      = ∑ f : Fin 768, lhs (ix2 r f) * rhs (ix2 f c) :=
  Cert.KernelIdeal.PayLayout.matmul_zero_ix2_apply dot_S1024x768_S768x1024_S1024x1024_1_0_0_1_n_n rfl rfl
    (fun j q => by
      unfold DotDims.lhsIdx
      rw [dif_neg (show ¬(0 : Fin S1024x768.rank) ∈ dot_S1024x768_S768x1024_S1024x1024_1_0_0_1_n_n.lhsBatch by decide), dif_pos (show (0 : Fin S1024x768.rank) ∈ dot_S1024x768_S768x1024_S1024x1024_1_0_0_1_n_n.lhsNonContracting by decide)]
      rfl)
    (fun j q => dot_S1024x768_S768x1024_S1024x1024_1_0_0_1_n_n.lhsIdx_val_of_single rfl j q)
    (fun j q => dot_S1024x768_S768x1024_S1024x1024_1_0_0_1_n_n.rhsIdx_val_of_single rfl j q)
    (fun j q => by
      unfold DotDims.rhsIdx
      rw [dif_neg (show ¬(1 : Fin S768x1024.rank) ∈ dot_S1024x768_S768x1024_S1024x1024_1_0_0_1_n_n.rhsBatch by decide), dif_pos (show (1 : Fin S768x1024.rank) ∈ dot_S1024x768_S768x1024_S1024x1024_1_0_0_1_n_n.rhsNonContracting by decide)]
      rfl)
    none lhs rhs r c

/-- A head's scores: query rows times key rows, both contracted over their 64 columns, entry `(r, c)`. -/
theorem scores_apply (lhs : FVec Ideal S512x64 .bf16) (rhs : FVec Ideal S1024x64 .bf16) (r : Fin 512) (c : Fin 1024) :
    matmul dot_S512x64_S1024x64_S512x1024_1_1_0_0_n_n none lhs rhs (constant (F := Ideal) S512x1024 .f32 0x00000000#32) (ix2 r c)
      = ∑ f : Fin 64, lhs (ix2 r f) * rhs (ix2 c f) :=
  Cert.ProjLayout.matmul_zero_rows_apply dot_S512x64_S1024x64_S512x1024_1_1_0_0_n_n rfl rfl
    (fun j q => by
      unfold DotDims.lhsIdx
      rw [dif_neg (show ¬(0 : Fin S512x64.rank) ∈ dot_S512x64_S1024x64_S512x1024_1_1_0_0_n_n.lhsBatch by decide), dif_pos (show (0 : Fin S512x64.rank) ∈ dot_S512x64_S1024x64_S512x1024_1_1_0_0_n_n.lhsNonContracting by decide)]
      rfl)
    (fun j q => dot_S512x64_S1024x64_S512x1024_1_1_0_0_n_n.lhsIdx_val_of_single rfl j q)
    (fun j q => by
      unfold DotDims.rhsIdx
      rw [dif_neg (show ¬(0 : Fin S1024x64.rank) ∈ dot_S512x64_S1024x64_S512x1024_1_1_0_0_n_n.rhsBatch by decide), dif_pos (show (0 : Fin S1024x64.rank) ∈ dot_S512x64_S1024x64_S512x1024_1_1_0_0_n_n.rhsNonContracting by decide)]
      rfl)
    (fun j q => dot_S512x64_S1024x64_S512x1024_1_1_0_0_n_n.rhsIdx_val_of_single rfl j q)
    none lhs rhs r c

/-- weighted_apply: an `[512, 1024] · [1024, 64]` product into the zero accumulator, entry `(r, c)`. -/
theorem weighted_apply (lhs : FVec Ideal S512x1024 .bf16) (rhs : FVec Ideal S1024x64 .bf16) (r : Fin 512) (c : Fin 64) :
    matmul dot_S512x1024_S1024x64_S512x64_1_0_0_1_n_n none lhs rhs (constant (F := Ideal) S512x64 .f32 0x00000000#32) (ix2 r c)
      = ∑ f : Fin 1024, lhs (ix2 r f) * rhs (ix2 f c) :=
  Cert.KernelIdeal.PayLayout.matmul_zero_ix2_apply dot_S512x1024_S1024x64_S512x64_1_0_0_1_n_n rfl rfl
    (fun j q => by
      unfold DotDims.lhsIdx
      rw [dif_neg (show ¬(0 : Fin S512x1024.rank) ∈ dot_S512x1024_S1024x64_S512x64_1_0_0_1_n_n.lhsBatch by decide), dif_pos (show (0 : Fin S512x1024.rank) ∈ dot_S512x1024_S1024x64_S512x64_1_0_0_1_n_n.lhsNonContracting by decide)]
      rfl)
    (fun j q => dot_S512x1024_S1024x64_S512x64_1_0_0_1_n_n.lhsIdx_val_of_single rfl j q)
    (fun j q => dot_S512x1024_S1024x64_S512x64_1_0_0_1_n_n.rhsIdx_val_of_single rfl j q)
    (fun j q => by
      unfold DotDims.rhsIdx
      rw [dif_neg (show ¬(1 : Fin S1024x64.rank) ∈ dot_S512x1024_S1024x64_S512x64_1_0_0_1_n_n.rhsBatch by decide), dif_pos (show (1 : Fin S1024x64.rank) ∈ dot_S512x1024_S1024x64_S512x64_1_0_0_1_n_n.rhsNonContracting by decide)]
      rfl)
    none lhs rhs r c

/-- outproj_apply: an `[512, 64] · [64, 512]` product into the zero accumulator, entry `(r, c)`. -/
theorem outproj_apply (lhs : FVec Ideal S512x64 .bf16) (rhs : FVec Ideal S64x512 .bf16) (r : Fin 512) (c : Fin 512) :
    matmul dot_S512x64_S64x512_S512x512_1_0_0_1_n_n none lhs rhs (constant (F := Ideal) S512x512 .f32 0x00000000#32) (ix2 r c)
      = ∑ f : Fin 64, lhs (ix2 r f) * rhs (ix2 f c) :=
  Cert.KernelIdeal.PayLayout.matmul_zero_ix2_apply dot_S512x64_S64x512_S512x512_1_0_0_1_n_n rfl rfl
    (fun j q => by
      unfold DotDims.lhsIdx
      rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
      rfl)
    (fun j q => dot_S512x64_S64x512_S512x512_1_0_0_1_n_n.lhsIdx_val_of_single rfl j q)
    (fun j q => dot_S512x64_S64x512_S512x512_1_0_0_1_n_n.rhsIdx_val_of_single rfl j q)
    (fun j q => by
      unfold DotDims.rhsIdx
      rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
      rfl)
    none lhs rhs r c

end Cert.KernelIdeal.DotFacts

end
-- ==== Proof.Spec.lean ====
/-
  Cross-attention with an output projection, index by index over the extended reals.

  For a batch `b` and a query position `n`: the query row is `x · Wqᵀ`, every key and value row is
  `context · Wkᵀ` and `context · Wvᵀ`; the 512 inner columns are eight heads of 64. For head `h` the score of key
  `m` is the dot product of the head's 64 query and key columns times the scale word; the scores of a row are turned
  into weights `exp (s m - max s) / Σ exp (s m' - max s)` (the maximum a fold of `max` from `-∞`), the head's output
  at column `d` is the weighted sum of the values' column `d` of that head, and the result at output column `o` is
  the sum over the 512 inner columns of the head outputs against row `o` of `Wo`, plus the bias.

  `koutRow` is that last formula for one row, from the row's query, the batch's keys and values, the projection
  matrix and the bias, with the 512-term sum already written head by head. Two regroupings of sums join the
  programs to it: a sum over 512 columns is the double sum over eight heads of 64 columns (`sum_hd`), and an
  accumulator started at zero and increased by one head at a time is the sum over the heads (`acc8`).
-/
import Idealize.ShloMosaic.Lib.ValueIdx
import Idealize.ShloMosaic.PureOps.Ideal

noncomputable section

namespace Cert.Attn

open Idealize.ShloMosaic Idealize.ShloMosaic.ValueIdx

/-- Column `d` of head `h` among the 512 inner columns. -/
def hd (h : Fin 8) (d : Fin 64) : Fin 512 := ⟨h.val * 64 + d.val, by omega⟩

/-- A key column inside the fused key/value row: the first 512 of its 1024 columns. -/
def kcol (i : Fin 512) : Fin 1024 := ⟨i.val, by omega⟩
/-- A value column inside the fused key/value row: the last 512 of its 1024 columns. -/
def vcol (i : Fin 512) : Fin 1024 := ⟨512 + i.val, by omega⟩

/-- The word of `-∞`, where every maximum starts. -/
abbrev ninf : EReal := Ideal.ofBits .f32 0xFF800000#32
/-- The scale word `1/8`. -/
abbrev scale : EReal := Ideal.ofBits .f32 0x3E000000#32

/-- The softmax weights of a row of scores `s`, applied to a column of values `v`. -/
def softRow {M : ℕ} (s v : Fin M → EReal) : EReal :=
  ∑ m, Ideal.div (Ideal.exp (s m - Finset.univ.fold max ninf s))
    (∑ m', Ideal.exp (s m' - Finset.univ.fold max ninf s)) * v m

/-- One output row: from the row's query `q`, the keys `k` and values `v` of its batch, the projection `wo` (inner
    column first) and the bias, the result at output column `o`. -/
def koutRow (q : Fin 512 → EReal) (k v : Fin 1024 → Fin 512 → EReal) (wo : Fin 512 → Fin 512 → EReal)
    (bo : Fin 512 → EReal) (o : Fin 512) : EReal :=
  (∑ h : Fin 8, ∑ d : Fin 64,
    softRow (fun m => (∑ d' : Fin 64, q (hd h d') * k m (hd h d')) * scale) (fun m => v m (hd h d)) * wo (hd h d) o)
  + bo o

/-- A matrix product `[a, k] · [k, n]`, entry by entry. -/
def mm {a k n : ℕ} (x : (⟨2, ![a, k]⟩ : Shape).Idx → EReal) (w : (⟨2, ![k, n]⟩ : Shape).Idx → EReal) :
    (⟨2, ![a, n]⟩ : Shape).Idx → EReal :=
  fun i => ∑ f : Fin k, x (ix2 ⟨(i 0).val, (i 0).isLt⟩ f) * w (ix2 f ⟨(i 1).val, (i 1).isLt⟩)

theorem mm_apply {a k n : ℕ} (x : (⟨2, ![a, k]⟩ : Shape).Idx → EReal) (w : (⟨2, ![k, n]⟩ : Shape).Idx → EReal)
    (r : Fin a) (c : Fin n) : mm x w (ix2 r c) = ∑ f : Fin k, x (ix2 r f) * w (ix2 f c) := rfl

section Whole

variable (X : (⟨3, ![4, 2048, 512]⟩ : Shape).Idx → EReal) (C : (⟨3, ![4, 1024, 768]⟩ : Shape).Idx → EReal)
  (Wq : (⟨2, ![512, 512]⟩ : Shape).Idx → EReal) (Wk Wv : (⟨2, ![512, 768]⟩ : Shape).Idx → EReal)
  (Wo : (⟨2, ![512, 512]⟩ : Shape).Idx → EReal) (bo : (⟨1, ![512]⟩ : Shape).Idx → EReal)

/-- The query projection. -/
def qry (b : Fin 4) (n : Fin 2048) (i : Fin 512) : EReal := ∑ c : Fin 512, X (ix3 b n c) * Wq (ix2 i c)
/-- The key projection. -/
def key (b : Fin 4) (m : Fin 1024) (i : Fin 512) : EReal := ∑ c : Fin 768, C (ix3 b m c) * Wk (ix2 i c)
/-- The value projection. -/
def vlu (b : Fin 4) (m : Fin 1024) (i : Fin 512) : EReal := ∑ c : Fin 768, C (ix3 b m c) * Wv (ix2 i c)

/-- The result at batch `b`, query position `n`, output column `o`. -/
def out (b : Fin 4) (n : Fin 2048) (o : Fin 512) : EReal :=
  koutRow (qry X Wq b n) (key C Wk b) (vlu C Wv b) (fun i o => Wo (ix2 o i)) (fun o => bo (ix1 o)) o

/-- The whole result array. -/
def result : (⟨3, ![4, 2048, 512]⟩ : Shape).Idx → EReal :=
  fun i => out X C Wq Wk Wv Wo bo ⟨(i 0).val, (i 0).isLt⟩ ⟨(i 1).val, (i 1).isLt⟩ ⟨(i 2).val, (i 2).isLt⟩

theorem result_apply (b : Fin 4) (n : Fin 2048) (o : Fin 512) :
    result X C Wq Wk Wv Wo bo (ix3 b n o) = out X C Wq Wk Wv Wo bo b n o := rfl

end Whole

/-- A sum over the 512 inner columns is the sum over the eight heads of the sum over each head's 64 columns. -/
theorem sum_hd {M : Type*} [AddCommMonoid M] (f : Fin 512 → M) :
    ∑ i, f i = ∑ h : Fin 8, ∑ d : Fin 64, f (hd h d) :=
  calc ∑ i, f i = ∑ p : Fin 8 × Fin 64, f ((finProdFinEquiv : Fin 8 × Fin 64 ≃ Fin 512) p) :=
        (Equiv.sum_comp (finProdFinEquiv : Fin 8 × Fin 64 ≃ Fin 512) f).symm
    _ = ∑ p : Fin 8 × Fin 64, f (hd p.1 p.2) :=
        Finset.sum_congr rfl fun p _ => congrArg f (Fin.ext (by
          show p.2.val + 64 * p.1.val = p.1.val * 64 + p.2.val
          omega))
    _ = ∑ h : Fin 8, ∑ d : Fin 64, f (hd h d) := Fintype.sum_prod_type' (fun h d => f (hd h d))

/-- An accumulator started at zero and increased by one head's term at a time ends at the sum over the heads. -/
theorem acc8 (g : Fin 8 → EReal) :
    ((((((((0 : EReal) + g 0) + g 1) + g 2) + g 3) + g 4) + g 5) + g 6) + g 7 = ∑ h, g h := by
  rw [Fin.sum_univ_eight, zero_add]

/-- The word of `-∞` is the least extended real. -/
theorem ninf_eq_bot : ninf = ⊥ := by
  simp [ninf, Ideal.ofBits, Ideal.ieee]

/-- A maximum folded from `-∞` is not changed by one more maximum with `-∞`. -/
theorem max_ninf_fold {M : ℕ} (s : Fin M → EReal) :
    max ninf (Finset.univ.fold max ninf s) = Finset.univ.fold max ninf s := by
  rw [ninf_eq_bot]; exact max_eq_right bot_le

end Cert.Attn

end
-- ==== Proof.LibColumnCast.lean ====
/-
  A column vector and its flat form. A sum along the lanes that keeps its axis has shape `[a, 1]`; the flat form of the
  same numbers has shape `[a]`. The two casts between them move no element: entry `(i, 0)` of the column is entry `i`
  of the flat vector, because both sit at row-major position `i`.
-/
import Idealize.ShloMosaic.Lib.Pipeline.Value
import Idealize.ShloMosaic.Lib.ValueIdx

noncomputable section

namespace Cert.Lib.ColumnCast

open Idealize.ShloMosaic Idealize.ShloMosaic.ValueIdx

variable {α : Type}

/-- A flat `[a]` vector cast to the column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the flat `[a]` vector reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.Lib.ColumnCast

end
-- ==== Proof.LibColumnBroadcast.lean ====
/-
  A column broadcast along the lanes. A per-row quantity kept as a column `[a, 1]` (a row's maximum, a row's sum) is
  broadcast to `[a, b]` by repeating its one entry along each row: entry `(p, c)` of the result is entry `(p, 0)` of
  the column, whatever the lane `c`.
-/
import Idealize.ShloMosaic.Lib.Pipeline.Value
import Idealize.ShloMosaic.Lib.ValueIdx

noncomputable section

namespace Cert.Lib.ColumnBroadcast

open Idealize.ShloMosaic Idealize.ShloMosaic.ValueIdx

variable {α : Type}

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnBroadcast

end
-- ==== Proof.LibLaneMax.lean ====
/-
  The maximum of an `[a, c]` matrix along its lanes, read at a row, on the vector unit and on the host. Both are the
  fold of `max` over the row's `c` entries from the reduction's starting value: the vector unit's reduction starts
  from the `-∞` word it is given, the host's reduce from its scalar initial value.
-/
import Idealize.ShloMosaic.Lib.ValueIdx
import Idealize.ShloMosaic.Lib.Pipeline.Value
import Idealize.ShloMosaic.PureOps.Ideal.Laws

noncomputable section

namespace Cert.Lib.LaneMax

open Idealize.ShloMosaic Idealize.ShloMosaic.ValueIdx

/-- Row `r` of an `[a, c]` matrix, with lane `k` put back into the reduced index `r`, is `(r, k)`. -/
theorem lift_row {a c : ℕ} (h : (⟨2, ![a, c]⟩ : Shape).Reduces [1] ⟨1, ![a]⟩) (r : Fin a) (k : Fin c) :
    h.lift (ix1 r) k = ix2 r k :=
  funext fun ax => Fin.ext (by
    match ax with
    | ⟨0, _⟩ => rfl
    | ⟨1, _⟩ => rfl)

/-- The vector unit's maximum along the lanes, started from the `-∞` word, reads at row `r` the fold of `max` from
    `-∞` over the row's entries. -/
theorem laneMax2_apply {a c : ℕ} (src : FVec Ideal ⟨2, ![a, c]⟩ .f32)
    (h : (⟨2, ![a, c]⟩ : Shape).Reduces [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = (Finset.univ : Finset (Fin c)).fold max (Ideal.ofBits .f32 0xFF800000#32) (fun k => src (ix2 r k)) := by
  refine (Ideal.multiReduction_maximumf_single src 0xFF800000#32 h hφ hacc (ix1 r)).trans ?_
  refine congrArg (fun f => Finset.fold max (Ideal.ofBits .f32 0xFF800000#32) f (Finset.univ : Finset (Fin c))) ?_
  exact funext fun k => congrArg src (lift_row h r k)

/-- The host's reduce with a maximum body along the lanes reads at row `r` the fold of `max` from its initial value over
    the row's entries. -/
theorem hostLaneMax2_apply {a c : ℕ} (x : FVec Ideal ⟨2, ![a, c]⟩ .f32) (init : (⟨0, ![]⟩ : Shape).Idx → Ideal .f32)
    (h' : (⟨2, ![a, c]⟩ : Shape).ReducesTo [1] ⟨1, ![a]⟩) (h : (⟨2, ![a, c]⟩ : Shape).Reduces [1] ⟨1, ![a]⟩)
    (hu : 0 < (⟨0, ![]⟩ : Shape).numel) (r : Fin a) :
    Host.reduce FloatOps.maximumf x init h' hu (ix1 r)
      = (Finset.univ : Finset (Fin c)).fold max (init (Shape.Idx.first hu)) (fun k => x (ix2 r k)) := by
  rw [Host.reduce_eq_fold_single FloatOps.maximumf x init h' h hu]
  refine congrArg (fun f => Finset.fold max (init (Shape.Idx.first hu)) f (Finset.univ : Finset (Fin c))) ?_
  exact funext fun k => congrArg x (lift_row h r k)

end Cert.Lib.LaneMax

end
-- ==== Proof.LibLaneOps.lean ====
/-
  Three readings at an index, over literal two-axis shapes: the sum of an [a, c] matrix along its lanes at a row; one
  column of an [a, b] array cut out as an [a, 1] slice; and the scalar at one lane of a one-row array, taken as a
  [1, 1] slice and extracted.
-/
import Idealize.ShloMosaic.Lib.ValueIdx
import Idealize.ShloMosaic.Lib.Pipeline.Value
import Idealize.ShloMosaic.PureOps.Ideal.Laws

noncomputable section

namespace Cert.Lib.LaneOps

open Idealize.ShloMosaic Idealize.ShloMosaic.ValueIdx

variable {α : Type}

/-- The sum of an `[a, c]` matrix along its lanes reads, at row `r`, the sum over `k` of the matrix at `(r, k)`. -/
theorem laneSum2_apply {a c : ℕ} (src : FVec Ideal ⟨2, ![a, c]⟩ .f32)
    (h : (⟨2, ![a, c]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin c, src (ix2 r k) := by
  refine (Ideal.multiReduction_add_single src 0x00000000#32 h hφ hacc (ix1 r)).trans ?_
  refine Finset.sum_congr rfl fun k _ => congrArg src (funext fun ax => Fin.ext ?_)
  match ax with
  | ⟨0, _⟩ => rfl
  | ⟨1, _⟩ => rfl

/-- Column `j` of an `[a, b]` array, cut out as an `[a, 1]` slice, reads at `(r, 0)` the array at `(r, j)`. -/
theorem colSlice_apply {a b : ℕ} (x : (⟨2, ![a, b]⟩ : Shape).Idx → α) (j : ℕ) (hj : j < b)
    (h : (⟨2, ![a, b]⟩ : Shape).Slices ![0, j] ⟨2, ![a, 1]⟩) (r : Fin a) :
    extractStridedSlice ⟨2, ![a, 1]⟩ ![0, j] x h (ix2 r (0 : Fin 1)) = x (ix2 r (⟨j, hj⟩ : Fin b)) := by
  refine extractStridedSlice_apply ![0, j] x h (ix2 r (0 : Fin 1)) (ix2 r (⟨j, hj⟩ : Fin b)) fun ax => ?_
  match ax with
  | ⟨0, _⟩ => exact (Nat.zero_add _).symm
  | ⟨1, _⟩ => rfl

/-- The scalar at lane `j` of a one-row array, taken as a `[1, 1]` slice and then extracted. -/
theorem laneScalar_apply {b : ℕ} (x : (⟨2, ![1, b]⟩ : Shape).Idx → α) (j : ℕ) (hj : j < b)
    (h : (⟨2, ![1, b]⟩ : Shape).Slices ![0, j] ⟨2, ![1, 1]⟩) (hp : ∀ a, (![0, 0] : Fin 2 → ℕ) a < (⟨2, ![1, 1]⟩ : Shape).size a) :
    extractAt ![0, 0] (extractStridedSlice ⟨2, ![1, 1]⟩ ![0, j] x h) hp = x (ix2 (0 : Fin 1) (⟨j, hj⟩ : Fin b)) := by
  unfold extractAt
  refine extractStridedSlice_apply ![0, j] x h _ (ix2 (0 : Fin 1) (⟨j, hj⟩ : Fin b)) fun ax => ?_
  match ax with
  | ⟨0, _⟩ => rfl
  | ⟨1, _⟩ => rfl

end Cert.Lib.LaneOps

end
-- ==== Proof.HeadTerm.lean ====
/-
  One attention head of the fused kernel body, as a term and read at an entry.

  From the query block `q` (512 rows), the key and value halves `k`, `v` of the batch's fused projection (1024
  rows each) and the transposed output weights `wo`, the head whose 64 columns start at `off` contributes to the
  output block the matrix `headTerm`: scores `(q_h · k_hᵀ) · 1/8`, each row turned into softmax weights through its
  maximum and the sum of its exponentials, the weights applied to `v_h`, and the result multiplied by the head's 64
  rows of `wo`. Read at `(p, o)` it is the sum over the head's columns `d` of the softmax-weighted sum of the values'
  column `d` times `wo` at `(d, o)`: `headTerm_apply`.
-/
import proofs.«105732_j13159779795222_2_alg».proof.Proof.DotFacts
import proofs.«105732_j13159779795222_2_alg».proof.Proof.Spec
import proofs.«105732_j13159779795222_2_alg».proof.Proof.LibColumnCast
import proofs.«105732_j13159779795222_2_alg».proof.Proof.LibColumnBroadcast
import proofs.«105732_j13159779795222_2_alg».proof.Proof.LibLaneMax
import proofs.«105732_j13159779795222_2_alg».proof.Proof.LibLaneOps
import Idealize.ShloMosaic.Lib.ValueLayout

noncomputable section

namespace Cert.KernelIdeal.Head

open Cert.KernelIdeal Cert.KernelIdeal.Gen Cert.KernelIdeal.DotFacts Cert.Attn
open Idealize.ShloMosaic Idealize.ShloMosaic.ValueIdx

/-- The scaled scores of the head at column offset `off`. -/
def scoreMat (off : ℕ) (hq : S512x512.Slices ![0, off] S512x64) (hk : S1024x512.Slices ![0, off] S1024x64)
    (q : FVec Ideal S512x512 .bf16) (k : FVec Ideal S1024x512 .bf16) : FVec Ideal S512x1024 .f32 :=
  mulf (matmul dot_S512x64_S1024x64_S512x1024_1_1_0_0_n_n none (extractStridedSlice S512x64 ![0, off] q hq)
      (extractStridedSlice S1024x64 ![0, off] k hk) (constant S512x1024 .f32 0x00000000#32))
    (broadcast S512x1024 (Scalar.ofBits .f32 0x3E000000#32))

/-- The softmax weights of every row of a score matrix. -/
def softMat (s : FVec Ideal S512x1024 .f32) : FVec Ideal S512x1024 .bf16 :=
  have mx : FVec Ideal S512x1024 .f32 := broadcastTo S512x1024 (shapeCast S512x1
    (multiReduction .maximumf [1] S512 s 0xFF800000#32 reduces_S512x1024_S512 (.inl rfl) rfl) shapeCasts_S512_S512x1) broadcasts_S512x1_S512x1024
  have e : FVec Ideal S512x1024 .f32 := exp (subf s mx)
  have l : FVec Ideal S512x1024 .f32 := broadcastTo S512x1024 (shapeCast S512x1
    (multiReduction .add [1] S512 e 0x00000000#32 reduces_S512x1024_S512 (.inl rfl) rfl) shapeCasts_S512_S512x1) broadcasts_S512x1_S512x1024
  truncf .bf16 (divf e l) bitsLt_bf16_f32

/-- The head's contribution to the output block. -/
def headTerm (off : ℕ) (hq : S512x512.Slices ![0, off] S512x64) (hk : S1024x512.Slices ![0, off] S1024x64)
    (hw : S512x512.Slices ![off, 0] S64x512)
    (q : FVec Ideal S512x512 .bf16) (k v : FVec Ideal S1024x512 .bf16) (wo : FVec Ideal S512x512 .bf16) :
    FVec Ideal S512x512 .f32 :=
  matmul dot_S512x64_S64x512_S512x512_1_0_0_1_n_n none
    (truncf .bf16 (matmul dot_S512x1024_S1024x64_S512x64_1_0_0_1_n_n none (softMat (scoreMat off hq hk q k))
      (extractStridedSlice S1024x64 ![0, off] v hk) (constant S512x64 .f32 0x00000000#32)) bitsLt_bf16_f32)
    (extractStridedSlice S64x512 ![off, 0] wo hw) (constant S512x512 .f32 0x00000000#32)

/-- A scaled score is the dot product of the head's query and key columns times the scale word. -/
theorem scoreMat_apply (off : ℕ) (hq : S512x512.Slices ![0, off] S512x64) (hk : S1024x512.Slices ![0, off] S1024x64)
    (q : FVec Ideal S512x512 .bf16) (k : FVec Ideal S1024x512 .bf16)
    (col : Fin 64 → Fin 512) (hcol : ∀ d, (col d).val = off + d.val) (p : Fin 512) (j : Fin 1024) :
    scoreMat off hq hk q k (ix2 p j) = (∑ d : Fin 64, q (ix2 p (col d)) * k (ix2 j (col d))) * scale := by
  show matmul (F := Ideal) dot_S512x64_S1024x64_S512x1024_1_1_0_0_n_n none _ _ _ (ix2 p j) * scale = _
  rw [scores_apply]
  refine congrArg (· * scale) (Finset.sum_congr rfl fun d _ => ?_)
  rw [slice2_axis1_apply off q hq p d (col d) (hcol d), slice2_axis1_apply off k hk j d (col d) (hcol d)]

/-- A softmax weight: the exponential of the score less the row's maximum, over the sum of the row's such
    exponentials. -/
theorem softMat_apply (s : FVec Ideal S512x1024 .f32) (p : Fin 512) (j : Fin 1024) :
    softMat s (ix2 p j)
      = Ideal.div (Ideal.exp (s (ix2 p j) - Finset.univ.fold max ninf (fun j' : Fin 1024 => s (ix2 p j'))))
          (∑ j' : Fin 1024, Ideal.exp (s (ix2 p j') - Finset.univ.fold max ninf (fun j'' : Fin 1024 => s (ix2 p j'')))) := by
  have hmx : ∀ j : Fin 1024, broadcastTo S512x1024 (shapeCast S512x1
      (multiReduction .maximumf [1] S512 s 0xFF800000#32 reduces_S512x1024_S512 (.inl rfl) rfl) shapeCasts_S512_S512x1)
        broadcasts_S512x1_S512x1024 (ix2 p j) = Finset.univ.fold max ninf (fun j' : Fin 1024 => s (ix2 p j')) := fun j => by
    rw [Cert.Lib.ColumnBroadcast.broadcastTo_a1_ab_apply, Cert.Lib.ColumnCast.shapeCast_a_a1_apply]
    exact Cert.Lib.LaneMax.laneMax2_apply s reduces_S512x1024_S512 (.inl rfl) rfl p
  have he : ∀ j : Fin 1024, (exp (subf s (broadcastTo S512x1024 (shapeCast S512x1
      (multiReduction .maximumf [1] S512 s 0xFF800000#32 reduces_S512x1024_S512 (.inl rfl) rfl) shapeCasts_S512_S512x1)
        broadcasts_S512x1_S512x1024)) : FVec Ideal S512x1024 .f32) (ix2 p j)
      = Ideal.exp (s (ix2 p j) - Finset.univ.fold max ninf (fun j' : Fin 1024 => s (ix2 p j'))) := fun j => by
    show Ideal.exp (s (ix2 p j) - _) = _
    rw [hmx]
  show Ideal.div (exp (subf s _) (ix2 p j)) (broadcastTo S512x1024 _ broadcasts_S512x1_S512x1024 (ix2 p j)) = _
  rw [he, Cert.Lib.ColumnBroadcast.broadcastTo_a1_ab_apply, Cert.Lib.ColumnCast.shapeCast_a_a1_apply]
  refine congrArg (Ideal.div _) ?_
  refine (Cert.Lib.LaneOps.laneSum2_apply _ reduces_S512x1024_S512 (.inl rfl) rfl p).trans ?_
  exact Finset.sum_congr rfl fun j' _ => he j'

/-- The head's contribution at `(p, o)`: over the head's columns `d`, the softmax-weighted sum of the values'
    column `d` times the output weights at `(d, o)`. -/
theorem headTerm_apply (off : ℕ) (hq : S512x512.Slices ![0, off] S512x64) (hk : S1024x512.Slices ![0, off] S1024x64)
    (hw : S512x512.Slices ![off, 0] S64x512)
    (q : FVec Ideal S512x512 .bf16) (k v : FVec Ideal S1024x512 .bf16) (wo : FVec Ideal S512x512 .bf16)
    (col : Fin 64 → Fin 512) (hcol : ∀ d, (col d).val = off + d.val) (p o : Fin 512) :
    headTerm off hq hk hw q k v wo (ix2 p o)
      = ∑ d : Fin 64, softRow (fun j : Fin 1024 => (∑ d' : Fin 64, q (ix2 p (col d')) * k (ix2 j (col d'))) * scale)
          (fun j : Fin 1024 => v (ix2 j (col d))) * wo (ix2 (col d) o) := by
  unfold headTerm
  rw [outproj_apply]
  refine Finset.sum_congr rfl fun d _ => ?_
  rw [slice2_axis0_apply off wo hw d o (col d) (hcol d)]
  refine congrArg (· * wo (ix2 (col d) o)) ?_
  show matmul (F := Ideal) dot_S512x1024_S1024x64_S512x64_1_0_0_1_n_n none _ _ _ (ix2 p d) = _
  rw [weighted_apply]
  unfold softRow
  refine Finset.sum_congr rfl fun j _ => ?_
  rw [slice2_axis1_apply off v hk j d (col d) (hcol d), softMat_apply]
  simp only [scoreMat_apply off hq hk q k col hcol]

end Cert.KernelIdeal.Head

end
-- ==== Proof.Bodies.lean ====
/-
  What each kernel body leaves in its output block, read at an entry over the extended reals.

  The two projection bodies store the product of the activation block and the whole weight matrix: entry `(r, c)` is
  the sum over `f` of activation `(r, f)` times weight `(f, c)`. The attention body stores, for its 512 query rows, the
  eight heads' contributions accumulated from zero, head after head, plus the bias row: entry `(p, o)` is one row of
  the attention formula (`koutRow`) from the row's projected query, the batch's fused keys and values, the transposed
  output weights and the bias.
-/
import proofs.«105732_j13159779795222_2_alg».proof.Proof.Gen.KernelIdeal.Frame
import proofs.«105732_j13159779795222_2_alg».proof.Proof.HeadTerm

set_option maxRecDepth 16384

noncomputable section

namespace Cert.KernelIdeal.Bodies

open Cert.KernelIdeal Cert.KernelIdeal.Gen Cert.KernelIdeal.DotFacts Cert.KernelIdeal.Head Cert.Attn
open Idealize.ShloMosaic Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-! ## The two projections -/

/-- The query projection's block: activations times transposed weights. -/
theorem out0_2_apply (x0 : Vec Ideal S1024x512 .f32) (x1 : Vec Ideal S512x512 .bf16) (r : Fin 1024) (c : Fin 512) :
    out0_2 (F := Ideal) x0 x1 (ix2 r c) = ∑ f : Fin 512, x0 (ix2 r f) * x1 (ix2 f c) := by
  unfold out0_2
  rw [View.canon_unit_zero hz2]
  simp only [View.ld_unit_zero (S := S1024x512) hz2, View.ld_unit_zero (S := S512x512) hz2]
  show matmul (F := Ideal) dot_S1024x512_S512x512_S1024x512_1_0_0_1_n_n none _ _ _ (ix2 r c) = _
  rw [proj_q_apply]
  refine Finset.sum_congr rfl fun f _ => ?_
  show shapeCast S1024x512 x0 shapeCasts_S1024x512_S1024x512 (ix2 r f) * shapeCast S512x512 x1 shapeCasts_S512x512_S512x512 (ix2 f c) = _
  rw [shapeCast_self, shapeCast_self]

/-- The key/value projection's block: activations times the fused transposed weights. -/
theorem out1_2_apply (x0 : Vec Ideal S1024x768 .f32) (x1 : Vec Ideal S768x1024 .bf16) (r : Fin 1024) (c : Fin 1024) :
    out1_2 (F := Ideal) x0 x1 (ix2 r c) = ∑ f : Fin 768, x0 (ix2 r f) * x1 (ix2 f c) := by
  unfold out1_2
  rw [View.canon_unit_zero hz2]
  simp only [View.ld_unit_zero (S := S1024x768) hz2, View.ld_unit_zero (S := S768x1024) hz2]
  show matmul (F := Ideal) dot_S1024x768_S768x1024_S1024x1024_1_0_0_1_n_n none _ _ _ (ix2 r c) = _
  rw [proj_kv_apply]
  refine Finset.sum_congr rfl fun f _ => ?_
  show shapeCast S1024x768 x0 shapeCasts_S1024x768_S1024x768 (ix2 r f) * shapeCast S768x1024 x1 shapeCasts_S768x1024_S768x1024 (ix2 f c) = _
  rw [shapeCast_self, shapeCast_self]

/-! ## The attention body -/

/-- The eight heads' contributions accumulated from zero, in the body's order. -/
def accAll (q : FVec Ideal S512x512 .bf16) (k v : FVec Ideal S1024x512 .bf16) (wo : FVec Ideal S512x512 .bf16) :
    FVec Ideal S512x512 .f32 :=
  (addf (addf (addf (addf (addf (addf (addf (addf (broadcast S512x512 (Scalar.ofBits .f32 0x00000000#32))
    (headTerm 0 slices_S512x512_o0_0_S512x64 slices_S1024x512_o0_0_S1024x64 slices_S512x512_o0_0_S64x512 q k v wo))
    (headTerm 64 slices_S512x512_o0_64_S512x64 slices_S1024x512_o0_64_S1024x64 slices_S512x512_o64_0_S64x512 q k v wo))
    (headTerm 128 slices_S512x512_o0_128_S512x64 slices_S1024x512_o0_128_S1024x64 slices_S512x512_o128_0_S64x512 q k v wo))
    (headTerm 192 slices_S512x512_o0_192_S512x64 slices_S1024x512_o0_192_S1024x64 slices_S512x512_o192_0_S64x512 q k v wo))
    (headTerm 256 slices_S512x512_o0_256_S512x64 slices_S1024x512_o0_256_S1024x64 slices_S512x512_o256_0_S64x512 q k v wo))
    (headTerm 320 slices_S512x512_o0_320_S512x64 slices_S1024x512_o0_320_S1024x64 slices_S512x512_o320_0_S64x512 q k v wo))
    (headTerm 384 slices_S512x512_o0_384_S512x64 slices_S1024x512_o0_384_S1024x64 slices_S512x512_o384_0_S64x512 q k v wo))
    (headTerm 448 slices_S512x512_o0_448_S512x64 slices_S1024x512_o0_448_S1024x64 slices_S512x512_o448_0_S64x512 q k v wo))

/-- The attention body's block is the accumulated heads plus the bias row, with a unit axis in front. -/
theorem out2_4_eq (x0 : Vec Ideal S1x512x512 .bf16) (x1 : Vec Ideal S1x1024x1024 .bf16) (x2 : Vec Ideal S512x512 .bf16)
    (x3 : Vec Ideal S1x512 .f32) :
    out2_4 (F := Ideal) x0 x1 x2 x3
      = shapeCast S1x512x512 (addf
          (accAll (shapeCast S512x512 x0 shapeCasts_S1x512x512_S512x512)
            (extractStridedSlice S1024x512 ![0, 0] (shapeCast S1024x1024 x1 shapeCasts_S1x1024x1024_S1024x1024) slices_S1024x1024_o0_0_S1024x512)
            (extractStridedSlice S1024x512 ![0, 512] (shapeCast S1024x1024 x1 shapeCasts_S1x1024x1024_S1024x1024) slices_S1024x1024_o0_512_S1024x512)
            (shapeCast S512x512 x2 shapeCasts_S512x512_S512x512))
          (broadcastTo S512x512 (shapeCast S1x512 x3 shapeCasts_S1x512_S1x512) broadcasts_S1x512_S512x512))
        shapeCasts_S512x512_S1x512x512 := by
  unfold out2_4
  rw [View.canon_unit_zero hz3]
  simp only [View.ld_unit_zero (S := S1x512x512) hz3, View.ld_unit_zero (S := S1x1024x1024) hz3,
    View.ld_unit_zero (S := S512x512) hz2, View.ld_unit_zero (S := S1x512) hz2]
  rfl

/-- Entry `(p, o)` of the attention body's block is the attention formula's row from the block's rows. -/
theorem out2_4_apply (x0 : Vec Ideal S1x512x512 .bf16) (x1 : Vec Ideal S1x1024x1024 .bf16) (x2 : Vec Ideal S512x512 .bf16)
    (x3 : Vec Ideal S1x512 .f32) (u : Fin 1) (p o : Fin 512) :
    out2_4 (F := Ideal) x0 x1 x2 x3 (ix3 u p o)
      = koutRow (fun i => x0 (ix3 (0 : Fin 1) p i)) (fun j i => x1 (ix3 (0 : Fin 1) j (kcol i)))
          (fun j i => x1 (ix3 (0 : Fin 1) j (vcol i))) (fun i o => x2 (ix2 i o)) (fun o => x3 (ix2 (0 : Fin 1) o)) o := by
  have hq : ∀ i : Fin 512, shapeCast S512x512 x0 shapeCasts_S1x512x512_S512x512 (ix2 p i) = x0 (ix3 (0 : Fin 1) p i) :=
    fun i => shapeCast_1ab_ab_apply x0 shapeCasts_S1x512x512_S512x512 p i
  have hk : ∀ (j : Fin 1024) (i : Fin 512),
      extractStridedSlice S1024x512 ![0, 0] (shapeCast S1024x1024 x1 shapeCasts_S1x1024x1024_S1024x1024) slices_S1024x1024_o0_0_S1024x512 (ix2 j i)
        = x1 (ix3 (0 : Fin 1) j (kcol i)) := fun j i => by
    rw [slice2_axis1_apply 0 _ slices_S1024x1024_o0_0_S1024x512 j i (kcol i) (by show i.val = 0 + i.val; omega)]
    exact shapeCast_1ab_ab_apply x1 shapeCasts_S1x1024x1024_S1024x1024 j (kcol i)
  have hv : ∀ (j : Fin 1024) (i : Fin 512),
      extractStridedSlice S1024x512 ![0, 512] (shapeCast S1024x1024 x1 shapeCasts_S1x1024x1024_S1024x1024) slices_S1024x1024_o0_512_S1024x512 (ix2 j i)
        = x1 (ix3 (0 : Fin 1) j (vcol i)) := fun j i => by
    rw [slice2_axis1_apply 512 _ slices_S1024x1024_o0_512_S1024x512 j i (vcol i) rfl]
    exact shapeCast_1ab_ab_apply x1 shapeCasts_S1x1024x1024_S1024x1024 j (vcol i)
  have hw : ∀ i o : Fin 512, shapeCast S512x512 x2 shapeCasts_S512x512_S512x512 (ix2 i o) = x2 (ix2 i o) :=
    fun i o => congrFun (shapeCast_self x2 shapeCasts_S512x512_S512x512) (ix2 i o)
  rw [out2_4_eq, shapeCast_ab_1ab_apply]
  show accAll _ _ _ _ (ix2 p o) + broadcastTo S512x512 (shapeCast S1x512 x3 shapeCasts_S1x512_S1x512) broadcasts_S1x512_S512x512 (ix2 p o) = _
  rw [broadcastTo_1b_ab_apply, shapeCast_self x3 shapeCasts_S1x512_S1x512]
  show _ = (∑ h : Fin 8, ∑ d : Fin 64,
    softRow (fun j : Fin 1024 => (∑ d' : Fin 64, x0 (ix3 (0 : Fin 1) p (hd h d')) * x1 (ix3 (0 : Fin 1) j (kcol (hd h d')))) * scale)
      (fun j : Fin 1024 => x1 (ix3 (0 : Fin 1) j (vcol (hd h d)))) * x2 (ix2 (hd h d) o)) + x3 (ix2 (0 : Fin 1) o)
  refine congrArg (· + x3 (ix2 (0 : Fin 1) o)) ?_
  show ((((((((Ideal.ofBits .f32 0x00000000#32 + headTerm 0 _ _ _ _ _ _ _ (ix2 p o)) + headTerm 64 _ _ _ _ _ _ _ (ix2 p o))
    + headTerm 128 _ _ _ _ _ _ _ (ix2 p o)) + headTerm 192 _ _ _ _ _ _ _ (ix2 p o)) + headTerm 256 _ _ _ _ _ _ _ (ix2 p o))
    + headTerm 320 _ _ _ _ _ _ _ (ix2 p o)) + headTerm 384 _ _ _ _ _ _ _ (ix2 p o)) + headTerm 448 _ _ _ _ _ _ _ (ix2 p o)) = _
  rw [headTerm_apply 0 _ _ _ _ _ _ _ (hd 0) (fun d => rfl), headTerm_apply 64 _ _ _ _ _ _ _ (hd 1) (fun d => rfl),
    headTerm_apply 128 _ _ _ _ _ _ _ (hd 2) (fun d => rfl), headTerm_apply 192 _ _ _ _ _ _ _ (hd 3) (fun d => rfl),
    headTerm_apply 256 _ _ _ _ _ _ _ (hd 4) (fun d => rfl), headTerm_apply 320 _ _ _ _ _ _ _ (hd 5) (fun d => rfl),
    headTerm_apply 384 _ _ _ _ _ _ _ (hd 6) (fun d => rfl), headTerm_apply 448 _ _ _ _ _ _ _ (hd 7) (fun d => rfl)]
  simp only [hq, hk, hv, hw]
  rw [Ideal.ofBits_zero_f32]
  exact acc8 (fun h => ∑ d : Fin 64,
    softRow (fun j : Fin 1024 => (∑ d' : Fin 64, x0 (ix3 (0 : Fin 1) p (hd h d')) * x1 (ix3 (0 : Fin 1) j (kcol (hd h d')))) * scale)
      (fun j : Fin 1024 => x1 (ix3 (0 : Fin 1) j (vcol (hd h d)))) * x2 (ix2 (hd h d) o))

end Cert.KernelIdeal.Bodies

end
-- ==== Proof.Blocks0.lean ====
/-
  The query projection as a whole array.

  The projection runs over eight grid points; point `t` reads rows `1024 t … 1024 t + 1023` of the merged activations
  and the whole transposed weight matrix, and writes back the same rows of the result. Every row of the result is in
  exactly one such block, so after the eight points the result array is the matrix product of the two arrays the
  region found, entry by entry.
-/
import proofs.«105732_j13159779795222_2_alg».proof.Proof.Bodies
import Idealize.ShloMosaic.Lib.Pipeline.Value

set_option maxRecDepth 16384

noncomputable section

namespace Cert.KernelIdeal.Blocks0

open Cert.KernelIdeal Cert.KernelIdeal.Gen Cert.KernelIdeal.Bodies Cert.Attn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)

/-- The printed index maps over the grid: the activation block moves with the output block along the rows, the
    weights stay put, and the output's row block index is below eight. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every row block of the result is some point's. -/
theorem idx_onto : ∀ q0 : Fin 8, ∃ t : Fin cfg0.N, win0_2.index t = ![q0.val, 0] :=
  (by decide +kernel : ∀ q0 : Fin 8, ∃ t : Fin grid0.N, win0_2.index t = ![q0.val, 0])

/-- The product of the merged activations and the transposed weights, as the region finds them. -/
def G : S8192x512.Idx → EReal :=
  mm (V c main_v9 : S8192x512.Idx → EReal) (V c main_v5 : S512x512.Idx → EReal)

/-- What point `t` writes back is block `t` of the product. -/
theorem flushed_eq (t : Fin cfg0.N) :
    (dat0 V c).flushed 2 t = ((cfg0.win 2).blk t).view.read (Elt Ideal) (G V c) := by
  show (cfg0.win 2).cut (grid0.coords t) ((dat0 V c).after 2 t) = _
  rw [after0_2]
  obtain ⟨e0, e1, e2, e3, e4, e5⟩ := idx_facts t
  funext j
  obtain ⟨r, q, rfl⟩ : ∃ (r : Fin 1024) (q : Fin 512), j = ix2 r q := ⟨j 0, j 1, eq_ix2 j⟩
  show out0_2 (F := Ideal) (iblk0 V c 0 t) (iblk0 V c 1 t) (ix2 r q) = G V c (((cfg0.win 2).blk t).view.emb (ix2 r q))
  refine (out0_2_apply (iblk0 V c 0 t) (iblk0 V c 1 t) r q).trans ?_
  have hemb : ((cfg0.win 2).blk t).view.emb (ix2 r q)
      = ix2 (⟨win0_2.index t (0 : Fin 2) * 1024 + r.val, by have := r.isLt; omega⟩ : Fin 8192) q := by
    funext a; apply Fin.ext
    match a with
    | ⟨0, _⟩ => show win0_2.index t (0 : Fin 2) * 1024 + 1 * r.val = win0_2.index t (0 : Fin 2) * 1024 + r.val; omega
    | ⟨1, _⟩ => show win0_2.index t (1 : Fin 2) * 512 + 1 * q.val = q.val; omega
  rw [hemb]
  unfold G
  rw [mm_apply]
  refine Finset.sum_congr rfl fun f _ => ?_
  have h0 : iblk0 V c 0 t (ix2 r f)
      = (V c main_v9 : S8192x512.Idx → EReal) (ix2 (⟨win0_2.index t (0 : Fin 2) * 1024 + r.val, by have := r.isLt; omega⟩ : Fin 8192) f) := by
    show (V c main_v9 : S8192x512.Idx → EReal) (((cfg0.win 0).blk t).view.emb (ix2 r f)) = _
    refine congrArg (V c main_v9 : S8192x512.Idx → EReal) ?_
    funext a; apply Fin.ext
    match a with
    | ⟨0, _⟩ => show win0_0.index t (0 : Fin 2) * 1024 + 1 * r.val = win0_2.index t (0 : Fin 2) * 1024 + r.val; omega
    | ⟨1, _⟩ => show win0_0.index t (1 : Fin 2) * 512 + 1 * f.val = f.val; omega
  have h1 : iblk0 V c 1 t (ix2 f q) = (V c main_v5 : S512x512.Idx → EReal) (ix2 f q) := by
    show (V c main_v5 : S512x512.Idx → EReal) (((cfg0.win 1).blk t).view.emb (ix2 f q)) = _
    refine congrArg (V c main_v5 : S512x512.Idx → EReal) ?_
    funext a; apply Fin.ext
    match a with
    | ⟨0, _⟩ => show win0_1.index t (0 : Fin 2) * 512 + 1 * f.val = f.val; omega
    | ⟨1, _⟩ => show win0_1.index t (1 : Fin 2) * 512 + 1 * q.val = q.val; omega
  rw [h0, h1]

/-- An index of the result is in point `t`'s block iff each coordinate is in the block's range on its axis. -/
theorem mem_blk (t : Fin cfg0.N) (i : S8192x512.Idx) :
    i ∈ ((cfg0.win 2).blk t).view.set ↔ ∀ a : Fin 2, win0_2.index t a * S1024x512.size a ≤ (i a).val
      ∧ (i a).val < win0_2.index t a * S1024x512.size a + S1024x512.size a := by
  show i ∈ ((View.whole main_v11).slice (win0_2.rect t)).set ↔ _
  rw [View.set_slice_whole, Rect.mem_set_unit]
  exact Iff.rfl

/-- Every index of the result is in some point's block: the point of its row block. -/
theorem cover (i : S8192x512.Idx) :
    ∃ t : Fin cfg0.N, (cfg0.win 2).flush t = true ∧ i ∈ ((cfg0.win 2).blk t).view.set := by
  have hi0 : (i 0).val < 8192 := (i 0).isLt
  have hi1 : (i 1).val < 512 := (i 1).isLt
  obtain ⟨t, ht⟩ := idx_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- After the region the result array is the product. -/
theorem final : (dat0 V c).arrAt 2 cfg0.N = G V c :=
  (dat0 V c).arrAt_eq_of_cover 2 (G V c) (fun t _ => flushed_eq V c t) (cover)

end Cert.KernelIdeal.Blocks0

end
-- ==== Proof.Blocks1.lean ====
/-
  The key/value projection as a whole array.

  The projection runs over four grid points; point `t` reads rows `1024 t … 1024 t + 1023` of the merged context
  activations and the whole fused transposed weight matrix, and writes back the same rows of the result. Every row
  of the result is in exactly one such block, so after the four points the result array is the matrix product of the
  two arrays the region found, entry by entry.
-/
import proofs.«105732_j13159779795222_2_alg».proof.Proof.Bodies
import Idealize.ShloMosaic.Lib.Pipeline.Value

set_option maxRecDepth 16384

noncomputable section

namespace Cert.KernelIdeal.Blocks1

open Cert.KernelIdeal Cert.KernelIdeal.Gen Cert.KernelIdeal.Bodies Cert.Attn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b)) (c : Dev nD)

/-- The printed index maps over the grid: the activation block moves with the output block along the rows, the
    weights stay put, and the output's row block index is below four. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 3 :=
  (by decide +kernel : ∀ t : Fin grid1.N, _)

/-- Every row block of the result is some point's. -/
theorem idx_onto : ∀ q0 : Fin 4, ∃ t : Fin cfg1.N, win1_2.index t = ![q0.val, 0] :=
  (by decide +kernel : ∀ q0 : Fin 4, ∃ t : Fin grid1.N, win1_2.index t = ![q0.val, 0])

/-- The product of the merged context activations and the fused transposed weights, as the region finds them. -/
def G : S4096x1024.Idx → EReal :=
  mm (V c main_v10 : S4096x768.Idx → EReal) (V c main_v6 : S768x1024.Idx → EReal)

/-- What point `t` writes back is block `t` of the product. -/
theorem flushed_eq (t : Fin cfg1.N) :
    (dat1 V c).flushed 2 t = ((cfg1.win 2).blk t).view.read (Elt Ideal) (G V c) := by
  show (cfg1.win 2).cut (grid1.coords t) ((dat1 V c).after 2 t) = _
  rw [after1_2]
  obtain ⟨e0, e1, e2, e3, e4, e5⟩ := idx_facts t
  funext j
  obtain ⟨r, q, rfl⟩ : ∃ (r : Fin 1024) (q : Fin 1024), j = ix2 r q := ⟨j 0, j 1, eq_ix2 j⟩
  show out1_2 (F := Ideal) (iblk1 V c 0 t) (iblk1 V c 1 t) (ix2 r q) = G V c (((cfg1.win 2).blk t).view.emb (ix2 r q))
  refine (out1_2_apply (iblk1 V c 0 t) (iblk1 V c 1 t) r q).trans ?_
  have hemb : ((cfg1.win 2).blk t).view.emb (ix2 r q)
      = ix2 (⟨win1_2.index t (0 : Fin 2) * 1024 + r.val, by have := r.isLt; omega⟩ : Fin 4096) q := by
    funext a; apply Fin.ext
    match a with
    | ⟨0, _⟩ => show win1_2.index t (0 : Fin 2) * 1024 + 1 * r.val = win1_2.index t (0 : Fin 2) * 1024 + r.val; omega
    | ⟨1, _⟩ => show win1_2.index t (1 : Fin 2) * 1024 + 1 * q.val = q.val; omega
  rw [hemb]
  unfold G
  rw [mm_apply]
  refine Finset.sum_congr rfl fun f _ => ?_
  have h0 : iblk1 V c 0 t (ix2 r f)
      = (V c main_v10 : S4096x768.Idx → EReal) (ix2 (⟨win1_2.index t (0 : Fin 2) * 1024 + r.val, by have := r.isLt; omega⟩ : Fin 4096) f) := by
    show (V c main_v10 : S4096x768.Idx → EReal) (((cfg1.win 0).blk t).view.emb (ix2 r f)) = _
    refine congrArg (V c main_v10 : S4096x768.Idx → EReal) ?_
    funext a; apply Fin.ext
    match a with
    | ⟨0, _⟩ => show win1_0.index t (0 : Fin 2) * 1024 + 1 * r.val = win1_2.index t (0 : Fin 2) * 1024 + r.val; omega
    | ⟨1, _⟩ => show win1_0.index t (1 : Fin 2) * 768 + 1 * f.val = f.val; omega
  have h1 : iblk1 V c 1 t (ix2 f q) = (V c main_v6 : S768x1024.Idx → EReal) (ix2 f q) := by
    show (V c main_v6 : S768x1024.Idx → EReal) (((cfg1.win 1).blk t).view.emb (ix2 f q)) = _
    refine congrArg (V c main_v6 : S768x1024.Idx → EReal) ?_
    funext a; apply Fin.ext
    match a with
    | ⟨0, _⟩ => show win1_1.index t (0 : Fin 2) * 768 + 1 * f.val = f.val; omega
    | ⟨1, _⟩ => show win1_1.index t (1 : Fin 2) * 1024 + 1 * q.val = q.val; omega
  rw [h0, h1]

/-- An index of the result is in point `t`'s block iff each coordinate is in the block's range on its axis. -/
theorem mem_blk (t : Fin cfg1.N) (i : S4096x1024.Idx) :
    i ∈ ((cfg1.win 2).blk t).view.set ↔ ∀ a : Fin 2, win1_2.index t a * S1024x1024.size a ≤ (i a).val
      ∧ (i a).val < win1_2.index t a * S1024x1024.size a + S1024x1024.size a := by
  show i ∈ ((View.whole main_v12).slice (win1_2.rect t)).set ↔ _
  rw [View.set_slice_whole, Rect.mem_set_unit]
  exact Iff.rfl

/-- Every index of the result is in some point's block: the point of its row block. -/
theorem cover (i : S4096x1024.Idx) :
    ∃ t : Fin cfg1.N, (cfg1.win 2).flush t = true ∧ i ∈ ((cfg1.win 2).blk t).view.set := by
  have hi0 : (i 0).val < 4096 := (i 0).isLt
  have hi1 : (i 1).val < 1024 := (i 1).isLt
  obtain ⟨t, ht⟩ := idx_onto ⟨(i 0).val / 1024, by omega⟩
  have q0 : win1_2.index t (0 : Fin 2) = (i 0).val / 1024 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-- After the region the result array is the product. -/
theorem final : (dat1 V c).arrAt 2 cfg1.N = G V c :=
  (dat1 V c).arrAt_eq_of_cover 2 (G V c) (fun t _ => flushed_eq V c t) (cover)

end Cert.KernelIdeal.Blocks1

end
-- ==== Proof.Blocks2.lean ====
/-
  The attention kernel as a whole array.

  The kernel runs over a four-by-four grid: point `(b, g)` reads the 512 projected query rows `512 g … 512 g + 511` of
  batch `b`, all 1024 fused key/value rows of batch `b`, the whole transposed output weights and the bias row, and
  writes back rows `512 g … 512 g + 511` of batch `b` of the result. Every entry of the result is in exactly one such
  block, so after the sixteen points the result array holds, at `(b, n, o)`, the attention formula's row from row
  `(b, n)` of the projected queries, batch `b` of the fused keys and values, the weights and the bias.
-/
import proofs.«105732_j13159779795222_2_alg».proof.Proof.Bodies
import Idealize.ShloMosaic.Lib.Pipeline.Value

set_option maxRecDepth 16384

noncomputable section

namespace Cert.KernelIdeal.Blocks2

open Cert.KernelIdeal Cert.KernelIdeal.Gen Cert.KernelIdeal.Bodies Cert.Attn
open Idealize.ShloMosaic Idealize.ShloMosaic.TcCoe Idealize.SL.Sem Idealize.ShloMosaic.ValueIdx
open Idealize.ShloMosaic.Pipeline (Dat)

/-- The attention formula's row depends on its five arguments only through their entries. -/
theorem koutRow_congr {q q' : Fin 512 → EReal} {k k' v v' : Fin 1024 → Fin 512 → EReal}
    {wo wo' : Fin 512 → Fin 512 → EReal} {bo bo' : Fin 512 → EReal}
    (hq : ∀ i, q i = q' i) (hk : ∀ j i, k j i = k' j i) (hv : ∀ j i, v j i = v' j i)
    (hw : ∀ i o, wo i o = wo' i o) (hb : ∀ o, bo o = bo' o) (o : Fin 512) :
    koutRow q k v wo bo o = koutRow q' k' v' wo' bo' o := by
  have e1 : q = q' := funext hq
  have e2 : k = k' := funext fun j => funext (hk j)
  have e3 : v = v' := funext fun j => funext (hv j)
  have e4 : wo = wo' := funext fun i => funext (hw i)
  have e5 : bo = bo' := funext hb
  rw [e1, e2, e3, e4, e5]

/-- The result array from the projected queries, the fused keys and values, the transposed output weights and the
    bias row. -/
def attnArr (Q3 : S4x2048x512.Idx → EReal) (KV3 : S4x1024x1024.Idx → EReal) (WO : S512x512.Idx → EReal)
    (BO : S1x512.Idx → EReal) : S4x2048x512.Idx → EReal :=
  fun i => koutRow (fun i' => Q3 (ix3 (⟨(i 0).val, (i 0).isLt⟩ : Fin 4) (⟨(i 1).val, (i 1).isLt⟩ : Fin 2048) i'))
    (fun j i' => KV3 (ix3 (⟨(i 0).val, (i 0).isLt⟩ : Fin 4) j (kcol i')))
    (fun j i' => KV3 (ix3 (⟨(i 0).val, (i 0).isLt⟩ : Fin 4) j (vcol i')))
    (fun i' o => WO (ix2 i' o)) (fun o => BO (ix2 (0 : Fin 1) o)) (⟨(i 2).val, (i 2).isLt⟩ : Fin 512)

theorem attnArr_apply (Q3 : S4x2048x512.Idx → EReal) (KV3 : S4x1024x1024.Idx → EReal) (WO : S512x512.Idx → EReal)
    (BO : S1x512.Idx → EReal) (b : Fin 4) (n : Fin 2048) (o : Fin 512) :
    attnArr Q3 KV3 WO BO (ix3 b n o)
      = koutRow (fun i' => Q3 (ix3 b n i')) (fun j i' => KV3 (ix3 b j (kcol i'))) (fun j i' => KV3 (ix3 b j (vcol i')))
          (fun i' o => WO (ix2 i' o)) (fun o => BO (ix2 (0 : Fin 1) o)) o := rfl

variable (V : (c : Dev nD) → (b : Ref sig .tc) → Buf (Elt Ideal) ((c : Thread nD τ).loc b)) (c : Dev nD)

/-- The printed index maps over the grid: the query block moves with the output block, the key/value block follows
    the batch only, the weights and the bias stay put, and the output's batch and row block indices are below four. -/
theorem idx_facts : ∀ t : Fin cfg2.N, win2_0.index t (0 : Fin 3) = win2_4.index t (0 : Fin 3)
    ∧ win2_0.index t (1 : Fin 3) = win2_4.index t (1 : Fin 3)
    ∧ win2_0.index t (2 : Fin 3) = 0
    ∧ win2_1.index t (0 : Fin 3) = win2_4.index t (0 : Fin 3)
    ∧ win2_1.index t (1 : Fin 3) = 0
    ∧ win2_1.index t (2 : Fin 3) = 0
    ∧ win2_2.index t (0 : Fin 2) = 0
    ∧ win2_2.index t (1 : Fin 2) = 0
    ∧ win2_3.index t (0 : Fin 2) = 0
    ∧ win2_3.index t (1 : Fin 2) = 0
    ∧ win2_4.index t (2 : Fin 3) = 0
    ∧ win2_4.index t (0 : Fin 3) ≤ 3
    ∧ win2_4.index t (1 : Fin 3) ≤ 3 :=
  (by decide +kernel : ∀ t : Fin grid2.N, _)

/-- Every block of the result is some point's. -/
theorem idx_onto : ∀ (q0 q1 : Fin 4), ∃ t : Fin cfg2.N, win2_4.index t = ![q0.val, q1.val, 0] :=
  (by decide +kernel : ∀ (q0 q1 : Fin 4), ∃ t : Fin grid2.N, win2_4.index t = ![q0.val, q1.val, 0])

/-- The result array from the four arrays the region finds. -/
def G : S4x2048x512.Idx → EReal :=
  attnArr (V c main_v13 : S4x2048x512.Idx → EReal) (V c main_v14 : S4x1024x1024.Idx → EReal)
    (V c main_v7 : S512x512.Idx → EReal) (V c main_v8 : S1x512.Idx → EReal)

/-- What point `t` writes back is block `t` of that array. -/
theorem flushed_eq (t : Fin cfg2.N) :
    (dat2 V c).flushed 4 t = ((cfg2.win 4).blk t).view.read (Elt Ideal) (G V c) := by
  show (cfg2.win 4).cut (grid2.coords t) ((dat2 V c).after 4 t) = _
  rw [after2_4]
  obtain ⟨e0, e1, e2, e3, e4, e5, e6, e7, e8, e9, e10, e11, e12⟩ := idx_facts t
  funext j
  obtain ⟨u, p, o, rfl⟩ : ∃ (u : Fin 1) (p : Fin 512) (o : Fin 512), j = ix3 u p o := ⟨j 0, j 1, j 2, eq_ix3 j⟩
  have hu : u.val = 0 := by omega
  show out2_4 (F := Ideal) (iblk2 V c 0 t) (iblk2 V c 1 t) (iblk2 V c 2 t) (iblk2 V c 3 t) (ix3 u p o)
    = G V c (((cfg2.win 4).blk t).view.emb (ix3 u p o))
  refine (out2_4_apply (iblk2 V c 0 t) (iblk2 V c 1 t) (iblk2 V c 2 t) (iblk2 V c 3 t) u p o).trans ?_
  have hemb : ((cfg2.win 4).blk t).view.emb (ix3 u p o)
      = ix3 (⟨win2_4.index t (0 : Fin 3), by omega⟩ : Fin 4)
          (⟨win2_4.index t (1 : Fin 3) * 512 + p.val, by have := p.isLt; omega⟩ : Fin 2048) o := by
    funext a; apply Fin.ext
    match a with
    | ⟨0, _⟩ => show win2_4.index t (0 : Fin 3) * 1 + 1 * u.val = win2_4.index t (0 : Fin 3); omega
    | ⟨1, _⟩ => show win2_4.index t (1 : Fin 3) * 512 + 1 * p.val = win2_4.index t (1 : Fin 3) * 512 + p.val; omega
    | ⟨2, _⟩ => show win2_4.index t (2 : Fin 3) * 512 + 1 * o.val = o.val; omega
  rw [hemb]
  unfold G
  rw [attnArr_apply]
  refine koutRow_congr (fun i' => ?_) (fun j' i' => ?_) (fun j' i' => ?_) (fun i' o' => ?_) (fun o' => ?_) o
  · show (V c main_v13 : S4x2048x512.Idx → EReal) (((cfg2.win 0).blk t).view.emb (ix3 (0 : Fin 1) p i')) = _
    refine congrArg (V c main_v13 : S4x2048x512.Idx → EReal) ?_
    funext a; apply Fin.ext
    match a with
    | ⟨0, _⟩ => show win2_0.index t (0 : Fin 3) * 1 + 1 * 0 = win2_4.index t (0 : Fin 3); omega
    | ⟨1, _⟩ => show win2_0.index t (1 : Fin 3) * 512 + 1 * p.val = win2_4.index t (1 : Fin 3) * 512 + p.val; omega
    | ⟨2, _⟩ => show win2_0.index t (2 : Fin 3) * 512 + 1 * i'.val = i'.val; omega
  · show (V c main_v14 : S4x1024x1024.Idx → EReal) (((cfg2.win 1).blk t).view.emb (ix3 (0 : Fin 1) j' (kcol i'))) = _
    refine congrArg (V c main_v14 : S4x1024x1024.Idx → EReal) ?_
    funext a; apply Fin.ext
    match a with
    | ⟨0, _⟩ => show win2_1.index t (0 : Fin 3) * 1 + 1 * 0 = win2_4.index t (0 : Fin 3); omega
    | ⟨1, _⟩ => show win2_1.index t (1 : Fin 3) * 1024 + 1 * j'.val = j'.val; omega
    | ⟨2, _⟩ => show win2_1.index t (2 : Fin 3) * 1024 + 1 * (kcol i').val = (kcol i').val; omega
  · show (V c main_v14 : S4x1024x1024.Idx → EReal) (((cfg2.win 1).blk t).view.emb (ix3 (0 : Fin 1) j' (vcol i'))) = _
    refine congrArg (V c main_v14 : S4x1024x1024.Idx → EReal) ?_
    funext a; apply Fin.ext
    match a with
    | ⟨0, _⟩ => show win2_1.index t (0 : Fin 3) * 1 + 1 * 0 = win2_4.index t (0 : Fin 3); omega
    | ⟨1, _⟩ => show win2_1.index t (1 : Fin 3) * 1024 + 1 * j'.val = j'.val; omega
    | ⟨2, _⟩ => show win2_1.index t (2 : Fin 3) * 1024 + 1 * (vcol i').val = (vcol i').val; omega
  · show (V c main_v7 : S512x512.Idx → EReal) (((cfg2.win 2).blk t).view.emb (ix2 i' o')) = _
    refine congrArg (V c main_v7 : S512x512.Idx → EReal) ?_
    funext a; apply Fin.ext
    match a with
    | ⟨0, _⟩ => show win2_2.index t (0 : Fin 2) * 512 + 1 * i'.val = i'.val; omega
    | ⟨1, _⟩ => show win2_2.index t (1 : Fin 2) * 512 + 1 * o'.val = o'.val; omega
  · show (V c main_v8 : S1x512.Idx → EReal) (((cfg2.win 3).blk t).view.emb (ix2 (0 : Fin 1) o')) = _
    refine congrArg (V c main_v8 : S1x512.Idx → EReal) ?_
    funext a; apply Fin.ext
    match a with
    | ⟨0, _⟩ => show win2_3.index t (0 : Fin 2) * 1 + 1 * 0 = 0; omega
    | ⟨1, _⟩ => show win2_3.index t (1 : Fin 2) * 512 + 1 * o'.val = o'.val; omega

/-- An index of the result is in point `t`'s block iff each coordinate is in the block's range on its axis. -/
theorem mem_blk (t : Fin cfg2.N) (i : S4x2048x512.Idx) :
    i ∈ ((cfg2.win 4).blk t).view.set ↔ ∀ a : Fin 3, win2_4.index t a * S1x512x512.size a ≤ (i a).val
      ∧ (i a).val < win2_4.index t a * S1x512x512.size a + S1x512x512.size a := by
  show i ∈ ((View.whole main_v15).slice (win2_4.rect t)).set ↔ _
  rw [View.set_slice_whole, Rect.mem_set_unit]
  exact Iff.rfl

/-- Every index of the result is in some point's block: the point of its batch and row block. -/
theorem cover (i : S4x2048x512.Idx) :
    ∃ t : Fin cfg2.N, (cfg2.win 4).flush t = true ∧ i ∈ ((cfg2.win 4).blk t).view.set := by
  have hi0 : (i 0).val < 4 := (i 0).isLt
  have hi1 : (i 1).val < 2048 := (i 1).isLt
  have hi2 : (i 2).val < 512 := (i 2).isLt
  obtain ⟨t, ht⟩ := idx_onto ⟨(i 0).val, by omega⟩ ⟨(i 1).val / 512, by omega⟩
  have q0 : win2_4.index t (0 : Fin 3) = (i 0).val := congrFun ht 0
  have q1 : win2_4.index t (1 : Fin 3) = (i 1).val / 512 := congrFun ht 1
  have q2 : win2_4.index t (2 : Fin 3) = 0 := congrFun ht 2
  refine ⟨t, flush2_4 t, ?_⟩
  rw [mem_blk]
  intro a
  match a with
  | ⟨0, _⟩ => show win2_4.index t (0 : Fin 3) * 1 ≤ (i 0).val ∧ (i 0).val < win2_4.index t (0 : Fin 3) * 1 + 1; omega
  | ⟨1, _⟩ => show win2_4.index t (1 : Fin 3) * 512 ≤ (i 1).val ∧ (i 1).val < win2_4.index t (1 : Fin 3) * 512 + 512; omega
  | ⟨2, _⟩ => show win2_4.index t (2 : Fin 3) * 512 ≤ (i 2).val ∧ (i 2).val < win2_4.index t (2 : Fin 3) * 512 + 512; omega

/-- After the region the result array is that array. -/
theorem final : (dat2 V c).arrAt 4 cfg2.N = G V c :=
  (dat2 V c).arrAt_eq_of_cover 4 (G V c) (fun t _ => flushed_eq V c t) (cover)

end Cert.KernelIdeal.Blocks2

end
-- ==== Proof.HostVals.lean ====
/-
  The host operations of the idealized kernel's program, read at an index.

  Before the first projection the program transposes the four weight matrices, lays the transposed key and value
  weights side by side (key columns first), changes their float format (the identity on extended reals), adds a
  unit axis in front of the bias, and merges the batch and position axes of the two activations row-major. Between
  the projections and the attention kernel it splits those two axes again. Each lemma says which entry of an
  argument array, or of an earlier buffer, an entry of such a buffer is.
-/
import proofs.«105732_j13159779795222_2_alg».proof.Proof.Gen.KernelIdeal.Frame
import proofs.«105732_j13159779795222_2_alg».proof.Proof.LibKeepdimsLayout
import proofs.«105732_j13159779795222_2_alg».proof.Proof.LibProjLayout
import proofs.«105732_j13159779795222_2_alg».proof.Proof.Spec
import Idealize.ShloMosaic.Lib.StableHlo.Run
import Idealize.ShloMosaic.Lib.ValueLayout
import Idealize.ShloMosaic.Lib.Pipeline.Value

set_option maxRecDepth 16384

noncomputable section

namespace Cert.KernelIdeal.HostVals

open Cert.KernelIdeal Cert.KernelIdeal.Gen Cert.Attn
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## Before the first projection -/

/-- The transposed query weights: entry `(f, i)` is `Wq (i, f)`. -/
theorem wqT_apply (f i : Fin 512) :
    (W1 m ρ c (Proc.devRef .tc main_v5) : (⟨S512x512, .bf16⟩ : BufTy).Contents (Elt Ideal)) (ix2 f i)
      = (m ((c : Thread nD τ).loc main_arg2) : (⟨S512x512, .f32⟩ : BufTy).Contents (Elt Ideal)) (ix2 i f) := by
  have e : (W1 m ρ c (Proc.devRef .tc main_v5) : (⟨S512x512, .bf16⟩ : BufTy).Contents (Elt Ideal))
      = truncf (F := Ideal) .bf16 (transpose S512x512 [1, 0] (m ((c : Thread nD τ).loc main_arg2)) transposes_S512x512_S512x512_1_0) bitsLt_bf16_f32 := by
    show StableHlo.after hostOps0 (W0 m ρ c) (Proc.devRef .tc main_v5) = _
    after_results
    try rfl
  rw [e]
  exact transpose_ix2_apply _ transposes_S512x512_S512x512_1_0 f i

/-- The transposed output weights: entry `(i, o)` is `Wo (o, i)`. -/
theorem woT_apply (i o : Fin 512) :
    (W1 m ρ c (Proc.devRef .tc main_v7) : (⟨S512x512, .bf16⟩ : BufTy).Contents (Elt Ideal)) (ix2 i o)
      = (m ((c : Thread nD τ).loc main_arg5) : (⟨S512x512, .f32⟩ : BufTy).Contents (Elt Ideal)) (ix2 o i) := by
  have e : (W1 m ρ c (Proc.devRef .tc main_v7) : (⟨S512x512, .bf16⟩ : BufTy).Contents (Elt Ideal))
      = truncf (F := Ideal) .bf16 (transpose S512x512 [1, 0] (m ((c : Thread nD τ).loc main_arg5)) transposes_S512x512_S512x512_1_0) bitsLt_bf16_f32 := by
    show StableHlo.after hostOps0 (W0 m ρ c) (Proc.devRef .tc main_v7) = _
    after_results
    try rfl
  rw [e]
  exact transpose_ix2_apply _ transposes_S512x512_S512x512_1_0 i o

/-- The transposed key and value weights side by side, as one term. -/
theorem wkvT_val :
    (W1 m ρ c (Proc.devRef .tc main_v6) : (⟨S768x1024, .bf16⟩ : BufTy).Contents (Elt Ideal))
      = truncf (F := Ideal) .bf16 (concatenate S768x1024 1
          [⟨S768x512, transpose S768x512 [1, 0] (m ((c : Thread nD τ).loc main_arg3)) transposes_S512x768_S768x512_1_0⟩,
           ⟨S768x512, transpose S768x512 [1, 0] (m ((c : Thread nD τ).loc main_arg4)) transposes_S512x768_S768x512_1_0⟩]
          concatenates_S768x512_S768x512_S768x1024_d1) bitsLt_bf16_f32 := by
  show StableHlo.after hostOps0 (W0 m ρ c) (Proc.devRef .tc main_v6) = _
  after_results
  try rfl

/-- A key column of the fused weights: entry `(f, i)` of the first 512 columns is `Wk (i, f)`. -/
theorem wkvT_key_apply (f : Fin 768) (i : Fin 512) :
    (W1 m ρ c (Proc.devRef .tc main_v6) : (⟨S768x1024, .bf16⟩ : BufTy).Contents (Elt Ideal)) (ix2 f (kcol i))
      = (m ((c : Thread nD τ).loc main_arg3) : (⟨S512x768, .f32⟩ : BufTy).Contents (Elt Ideal)) (ix2 i f) := by
  rw [wkvT_val]
  refine (concatenate_pair_apply_left (t := S768x1024) (s₁ := S768x512) (s₂ := S768x512) 1
    (transpose S768x512 [1, 0] (m ((c : Thread nD τ).loc main_arg3)) transposes_S512x768_S768x512_1_0)
    (transpose S768x512 [1, 0] (m ((c : Thread nD τ).loc main_arg4)) transposes_S512x768_S768x512_1_0)
    concatenates_S768x512_S768x512_S768x1024_d1
    (ix2 f (kcol i)) rfl (ix2 f i) (fun b => by
      match b with
      | ⟨0, _⟩ => rfl
      | ⟨1, _⟩ => rfl)).trans ?_
  exact transpose_ix2_apply _ transposes_S512x768_S768x512_1_0 f i

/-- A value column of the fused weights: entry `(f, 512 + i)` is `Wv (i, f)`. -/
theorem wkvT_val_apply (f : Fin 768) (i : Fin 512) :
    (W1 m ρ c (Proc.devRef .tc main_v6) : (⟨S768x1024, .bf16⟩ : BufTy).Contents (Elt Ideal)) (ix2 f (vcol i))
      = (m ((c : Thread nD τ).loc main_arg4) : (⟨S512x768, .f32⟩ : BufTy).Contents (Elt Ideal)) (ix2 i f) := by
  rw [wkvT_val]
  refine (concatenate_pair_apply_right (t := S768x1024) (s₁ := S768x512) (s₂ := S768x512) 1
    (transpose S768x512 [1, 0] (m ((c : Thread nD τ).loc main_arg3)) transposes_S512x768_S768x512_1_0)
    (transpose S768x512 [1, 0] (m ((c : Thread nD τ).loc main_arg4)) transposes_S512x768_S768x512_1_0)
    concatenates_S768x512_S768x512_S768x1024_d1
    (ix2 f (vcol i)) rfl rfl (ix2 f i) (fun b hb => by
      match b with
      | ⟨0, _⟩ => rfl
      | ⟨1, _⟩ => exact absurd rfl hb) (by
      show i.val + 512 = 512 + i.val
      omega)).trans ?_
  exact transpose_ix2_apply _ transposes_S512x768_S768x512_1_0 f i

/-- The bias with a unit axis in front: entry `(0, o)` is `bo o`. -/
theorem bo2_apply (o : Fin 512) :
    (W1 m ρ c (Proc.devRef .tc main_v8) : (⟨S1x512, .f32⟩ : BufTy).Contents (Elt Ideal)) (ix2 (0 : Fin 1) o)
      = (m ((c : Thread nD τ).loc main_arg6) : (⟨S512, .f32⟩ : BufTy).Contents (Elt Ideal)) (ix1 o) := by
  have e : (W1 m ρ c (Proc.devRef .tc main_v8) : (⟨S1x512, .f32⟩ : BufTy).Contents (Elt Ideal))
      = shapeCast S1x512 (m ((c : Thread nD τ).loc main_arg6)) shapeCasts_S512_S1x512 := by
    show StableHlo.after hostOps0 (W0 m ρ c) (Proc.devRef .tc main_v8) = _
    after_results
    try rfl
  rw [e]
  exact shapeCast_a_1a_apply _ shapeCasts_S512_S1x512 (0 : Fin 1) o

/-- The query activations with batch and position merged: row `b * 2048 + n` is row `(b, n)`. -/
theorem xFlat_apply (b : Fin 4) (n : Fin 2048) (r : Fin 8192) (hr : r.val = b.val * 2048 + n.val) (f : Fin 512) :
    (W1 m ρ c (Proc.devRef .tc main_v9) : (⟨S8192x512, .f32⟩ : BufTy).Contents (Elt Ideal)) (ix2 r f)
      = (m ((c : Thread nD τ).loc main_arg0) : (⟨S4x2048x512, .f32⟩ : BufTy).Contents (Elt Ideal)) (ix3 b n f) := by
  have e : (W1 m ρ c (Proc.devRef .tc main_v9) : (⟨S8192x512, .f32⟩ : BufTy).Contents (Elt Ideal))
      = shapeCast S8192x512 (m ((c : Thread nD τ).loc main_arg0)) shapeCasts_S4x2048x512_S8192x512 := by
    show StableHlo.after hostOps0 (W0 m ρ c) (Proc.devRef .tc main_v9) = _
    after_results
    try rfl
  rw [e]
  exact Cert.KernelIdeal.PayLayout.shapeCast_abc_nc_apply _ shapeCasts_S4x2048x512_S8192x512 b n f r hr

/-- The context activations with batch and position merged: row `b * 1024 + j` is row `(b, j)`. -/
theorem ctxFlat_apply (b : Fin 4) (j : Fin 1024) (r : Fin 4096) (hr : r.val = b.val * 1024 + j.val) (f : Fin 768) :
    (W1 m ρ c (Proc.devRef .tc main_v10) : (⟨S4096x768, .f32⟩ : BufTy).Contents (Elt Ideal)) (ix2 r f)
      = (m ((c : Thread nD τ).loc main_arg1) : (⟨S4x1024x768, .f32⟩ : BufTy).Contents (Elt Ideal)) (ix3 b j f) := by
  have e : (W1 m ρ c (Proc.devRef .tc main_v10) : (⟨S4096x768, .f32⟩ : BufTy).Contents (Elt Ideal))
      = shapeCast S4096x768 (m ((c : Thread nD τ).loc main_arg1)) shapeCasts_S4x1024x768_S4096x768 := by
    show StableHlo.after hostOps0 (W0 m ρ c) (Proc.devRef .tc main_v10) = _
    after_results
    try rfl
  rw [e]
  exact Cert.KernelIdeal.PayLayout.shapeCast_abc_nc_apply _ shapeCasts_S4x1024x768_S4096x768 b j f r hr

/-! ## Between the projections and the attention kernel -/

/-- The projected queries with batch and position split again: row `(b, n)` is row `b * 2048 + n`. -/
theorem q3_apply (b : Fin 4) (n : Fin 2048) (r : Fin 8192) (hr : r.val = b.val * 2048 + n.val) (i : Fin 512) :
    (W4 m ρ c (Proc.devRef .tc main_v13) : (⟨S4x2048x512, .bf16⟩ : BufTy).Contents (Elt Ideal)) (ix3 b n i)
      = (W3 m ρ c (Proc.devRef .tc main_v11) : (⟨S8192x512, .bf16⟩ : BufTy).Contents (Elt Ideal)) (ix2 r i) := by
  have e : (W4 m ρ c (Proc.devRef .tc main_v13) : (⟨S4x2048x512, .bf16⟩ : BufTy).Contents (Elt Ideal))
      = shapeCast S4x2048x512 (W3 m ρ c (Proc.devRef .tc main_v11) : (⟨S8192x512, .bf16⟩ : BufTy).Contents (Elt Ideal)) shapeCasts_S8192x512_S4x2048x512 := by
    show StableHlo.after hostOps2 (W3 m ρ c) (Proc.devRef .tc main_v13) = _
    after_results
    try rfl
  rw [e]
  exact Cert.ProjLayout.shapeCast_nc_abc_apply _ shapeCasts_S8192x512_S4x2048x512 b n i r hr

/-- The projected keys and values with batch and position split again: row `(b, j)` is row `b * 1024 + j`. -/
theorem kv3_apply (b : Fin 4) (j : Fin 1024) (r : Fin 4096) (hr : r.val = b.val * 1024 + j.val) (i : Fin 1024) :
    (W4 m ρ c (Proc.devRef .tc main_v14) : (⟨S4x1024x1024, .bf16⟩ : BufTy).Contents (Elt Ideal)) (ix3 b j i)
      = (W3 m ρ c (Proc.devRef .tc main_v12) : (⟨S4096x1024, .bf16⟩ : BufTy).Contents (Elt Ideal)) (ix2 r i) := by
  have e : (W4 m ρ c (Proc.devRef .tc main_v14) : (⟨S4x1024x1024, .bf16⟩ : BufTy).Contents (Elt Ideal))
      = shapeCast S4x1024x1024 (W3 m ρ c (Proc.devRef .tc main_v12) : (⟨S4096x1024, .bf16⟩ : BufTy).Contents (Elt Ideal)) shapeCasts_S4096x1024_S4x1024x1024 := by
    show StableHlo.after hostOps2 (W3 m ρ c) (Proc.devRef .tc main_v14) = _
    after_results
    try rfl
  rw [e]
  exact Cert.ProjLayout.shapeCast_nc_abc_apply _ shapeCasts_S4096x1024_S4x1024x1024 b j i r hr

/-- The two reshapes between the kernels write neither the output weights nor the bias row. -/
theorem W4_keep (b : Ref sig .tc) (h13 : b ≠ main_v13) (h14 : b ≠ main_v14) :
    W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.reshape_writes, Finset.mem_singleton]
    exact ⟨StableHlo.devRef_ne_of_ne h13, StableHlo.devRef_ne_of_ne h14⟩))

end Cert.KernelIdeal.HostVals

end
-- ==== Proof.KernelValue.lean ====
/-
  The idealized kernel's result array is the attention formula's array of the argument arrays.

  The result buffer after the last region holds what the attention kernel's sixteen points wrote: the attention
  formula's rows from the four arrays that region found. Those are: the projected queries, which the two reshapes
  between the kernels took from the first region's result — the product of the merged activations and the
  transposed query weights —; the fused keys and values, taken likewise from the second region's result — the
  product of the merged context and the transposed key and value weights side by side —; and the transposed output
  weights and the bias row, which the first host operations wrote and nothing afterwards touched. Entry by entry
  these are the query, key and value projections of the formula, `Wo` transposed, and the bias.
-/
import proofs.«105732_j13159779795222_2_alg».proof.Proof.Blocks0
import proofs.«105732_j13159779795222_2_alg».proof.Proof.Blocks1
import proofs.«105732_j13159779795222_2_alg».proof.Proof.Blocks2
import proofs.«105732_j13159779795222_2_alg».proof.Proof.HostVals

set_option maxRecDepth 16384

noncomputable section

namespace Cert.KernelIdeal.KernelValue

open Cert.KernelIdeal Cert.KernelIdeal.Gen Cert.KernelIdeal.HostVals Cert.Attn
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The first region's result, as the attention kernel's region finds it two segments later. -/
theorem qFlat_eq : (W3 m ρ c (Proc.devRef .tc main_v11) : S8192x512.Idx → EReal) = Blocks0.G (V1 m ρ) c :=
  ((W3_of_ne m ρ c main_v11 (by decide)).trans (W2_arr m ρ c 2)).trans (Blocks0.final (V1 m ρ) c)

/-- The second region's result. -/
theorem kvFlat_eq : (W3 m ρ c (Proc.devRef .tc main_v12) : S4096x1024.Idx → EReal) = Blocks1.G (V2 m ρ) c :=
  (W3_arr m ρ c 2).trans (Blocks1.final (V2 m ρ) c)

/-- A projected query entry is the formula's query projection. -/
theorem q_entry (b : Fin 4) (n : Fin 2048) (i : Fin 512) :
    (W4 m ρ c (Proc.devRef .tc main_v13) : S4x2048x512.Idx → EReal) (ix3 b n i)
      = qry (m ((c : Thread nD τ).loc main_arg0)) (m ((c : Thread nD τ).loc main_arg2)) b n i := by
  have hb := b.isLt; have hn := n.isLt
  refine (q3_apply m ρ c b n (⟨b.val * 2048 + n.val, by omega⟩ : Fin 8192) rfl i).trans ?_
  refine (congrFun (qFlat_eq m ρ c) _).trans ?_
  unfold Blocks0.G
  rw [mm_apply]
  unfold qry
  show @Eq EReal _ _
  refine Finset.sum_congr rfl fun f _ => ?_
  exact congrArg₂ (· * ·) (xFlat_apply m ρ c b n (⟨b.val * 2048 + n.val, by omega⟩ : Fin 8192) rfl f) (wqT_apply m ρ c f i)

/-- The merged context activations and the fused weights reach the second region unchanged. -/
theorem ctx_keep : (W2 m ρ c (Proc.devRef .tc main_v10) : S4096x768.Idx → EReal) = W1 m ρ c (Proc.devRef .tc main_v10) :=
  W2_of_ne m ρ c main_v10 (by decide)
theorem wkv_keep : (W2 m ρ c (Proc.devRef .tc main_v6) : S768x1024.Idx → EReal) = W1 m ρ c (Proc.devRef .tc main_v6) :=
  W2_of_ne m ρ c main_v6 (by decide)

/-- A key entry of the fused projection is the formula's key projection. -/
theorem k_entry (b : Fin 4) (j : Fin 1024) (i : Fin 512) :
    (W4 m ρ c (Proc.devRef .tc main_v14) : S4x1024x1024.Idx → EReal) (ix3 b j (kcol i))
      = key (m ((c : Thread nD τ).loc main_arg1)) (m ((c : Thread nD τ).loc main_arg3)) b j i := by
  have hb := b.isLt; have hj := j.isLt
  refine (kv3_apply m ρ c b j (⟨b.val * 1024 + j.val, by omega⟩ : Fin 4096) rfl (kcol i)).trans ?_
  refine (congrFun (kvFlat_eq m ρ c) _).trans ?_
  unfold Blocks1.G
  rw [mm_apply]
  unfold key
  show @Eq EReal _ _
  refine Finset.sum_congr rfl fun f _ => ?_
  refine congrArg₂ (· * ·) ?_ ?_
  · exact (congrFun (ctx_keep m ρ c) _).trans (ctxFlat_apply m ρ c b j (⟨b.val * 1024 + j.val, by omega⟩ : Fin 4096) rfl f)
  · exact (congrFun (wkv_keep m ρ c) _).trans (wkvT_key_apply m ρ c f i)

/-- A value entry of the fused projection is the formula's value projection. -/
theorem v_entry (b : Fin 4) (j : Fin 1024) (i : Fin 512) :
    (W4 m ρ c (Proc.devRef .tc main_v14) : S4x1024x1024.Idx → EReal) (ix3 b j (vcol i))
      = vlu (m ((c : Thread nD τ).loc main_arg1)) (m ((c : Thread nD τ).loc main_arg4)) b j i := by
  have hb := b.isLt; have hj := j.isLt
  refine (kv3_apply m ρ c b j (⟨b.val * 1024 + j.val, by omega⟩ : Fin 4096) rfl (vcol i)).trans ?_
  refine (congrFun (kvFlat_eq m ρ c) _).trans ?_
  unfold Blocks1.G
  rw [mm_apply]
  unfold vlu
  show @Eq EReal _ _
  refine Finset.sum_congr rfl fun f _ => ?_
  refine congrArg₂ (· * ·) ?_ ?_
  · exact (congrFun (ctx_keep m ρ c) _).trans (ctxFlat_apply m ρ c b j (⟨b.val * 1024 + j.val, by omega⟩ : Fin 4096) rfl f)
  · exact (congrFun (wkv_keep m ρ c) _).trans (wkvT_val_apply m ρ c f i)

/-- The transposed output weights reach the attention kernel unchanged. -/
theorem wo_entry (i o : Fin 512) :
    (W4 m ρ c (Proc.devRef .tc main_v7) : S512x512.Idx → EReal) (ix2 i o)
      = (m ((c : Thread nD τ).loc main_arg5) : S512x512.Idx → EReal) (ix2 o i) := by
  have e : (W4 m ρ c (Proc.devRef .tc main_v7) : S512x512.Idx → EReal) = W1 m ρ c (Proc.devRef .tc main_v7) :=
    ((W4_keep m ρ c main_v7 (by decide) (by decide)).trans (W3_of_ne m ρ c main_v7 (by decide))).trans
      (W2_of_ne m ρ c main_v7 (by decide))
  exact (congrFun e _).trans (woT_apply m ρ c i o)

/-- The bias row reaches the attention kernel unchanged. -/
theorem bo_entry (o : Fin 512) :
    (W4 m ρ c (Proc.devRef .tc main_v8) : S1x512.Idx → EReal) (ix2 (0 : Fin 1) o)
      = (m ((c : Thread nD τ).loc main_arg6) : S512.Idx → EReal) (ix1 o) := by
  have e : (W4 m ρ c (Proc.devRef .tc main_v8) : S1x512.Idx → EReal) = W1 m ρ c (Proc.devRef .tc main_v8) :=
    ((W4_keep m ρ c main_v8 (by decide) (by decide)).trans (W3_of_ne m ρ c main_v8 (by decide))).trans
      (W2_of_ne m ρ c main_v8 (by decide))
  exact (congrFun e _).trans (bo2_apply m ρ c o)

/-- The result buffer after the last region holds the formula's array of the argument arrays. -/
theorem result_eq :
    (W5 m ρ c (Proc.devRef .tc main_v15) : S4x2048x512.Idx → EReal)
      = result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) := by
  have e : (W5 m ρ c (Proc.devRef .tc main_v15) : S4x2048x512.Idx → EReal) = Blocks2.G (V4 m ρ) c :=
    (W5_arr m ρ c 4).trans (Blocks2.final (V4 m ρ) c)
  rw [e]
  funext i
  obtain ⟨b, n, o, rfl⟩ : ∃ (b : Fin 4) (n : Fin 2048) (o : Fin 512), i = ix3 b n o := ⟨i 0, i 1, i 2, eq_ix3 i⟩
  unfold Blocks2.G
  rw [Blocks2.attnArr_apply, Cert.Attn.result_apply]
  unfold out
  exact Blocks2.koutRow_congr (fun i' => q_entry m ρ c b n i') (fun j i' => k_entry m ρ c b j i')
    (fun j i' => v_entry m ρ c b j i') (fun i' o' => wo_entry m ρ c i' o') (fun o' => bo_entry m ρ c o') o

end Cert.KernelIdeal.KernelValue

end
-- ==== Proof.RefValue.lean ====
/-
  The reference program's result, read at an index, is the attention formula.

  The reference projects queries, keys and values with three contractions, splits the 512 inner columns into eight
  heads of 64 and moves the head axis in front of the position axis, contracts queries with keys over a head's 64
  columns, scales, takes the softmax along the keys (a maximum from `-∞`, with one more maximum against `-∞`; the
  exponentials of the differences; their sum; the quotients), contracts the weights with the values, moves the head
  axis back and merges it with the 64 columns, contracts with the output weights over all 512 inner columns and adds
  the bias. Stage by stage the generated reading lemmas give each entry from the stage before; the composed index
  maps are identified with coordinates here, and the last contraction's 512-term sum is regrouped head by head.
-/
import proofs.«105732_j13159779795222_2_alg».proof.Proof.Gen.ReferenceIdeal.Read
import proofs.«105732_j13159779795222_2_alg».proof.Proof.Spec
import Idealize.ShloMosaic.PureOps.Reduce

set_option maxRecDepth 16384

noncomputable section

namespace Cert.ReferenceIdeal.RefValue

open Cert.ReferenceIdeal Cert.ReferenceIdeal.Gen Cert.ReferenceIdeal.Read Cert.Attn
open Idealize.ShloMosaic Idealize.ShloMosaic.ValueIdx

variable (x0 : (⟨S4x2048x512, .f32⟩ : BufTy).Contents (Elt Ideal)) (x1 : (⟨S4x1024x768, .f32⟩ : BufTy).Contents (Elt Ideal)) (x2 : (⟨S512x512, .f32⟩ : BufTy).Contents (Elt Ideal)) (x3 : (⟨S512x768, .f32⟩ : BufTy).Contents (Elt Ideal))
  (x4 : (⟨S512x768, .f32⟩ : BufTy).Contents (Elt Ideal)) (x5 : (⟨S512x512, .f32⟩ : BufTy).Contents (Elt Ideal))
  (x6 : (⟨S512, .f32⟩ : BufTy).Contents (Elt Ideal))

/-! ## The three projections -/

theorem q_apply (b : Fin 4) (n : Fin 2048) (i : Fin 512) :
    val_main_v0 (F := Ideal) x0 x2 (ix3 b n i) = qry x0 x2 b n i := by
  rw [val_main_v0_apply]
  unfold qry
  refine Finset.sum_congr rfl fun k _ => ?_
  have el : lidx_main_v0 (ix3 b n i) k = ix3 b n k := funext fun a => Fin.ext (by
    match a with
    | ⟨0, _⟩ => rfl
    | ⟨1, _⟩ => rfl
    | ⟨2, _⟩ => rfl)
  have er : ridx_main_v0 (ix3 b n i) k = ix2 i k := funext fun a => Fin.ext (by
    match a with
    | ⟨0, _⟩ => rfl
    | ⟨1, _⟩ => rfl)
  rw [el, er]

theorem k_apply (b : Fin 4) (j : Fin 1024) (i : Fin 512) :
    val_main_v1 (F := Ideal) x1 x3 (ix3 b j i) = key x1 x3 b j i := by
  rw [val_main_v1_apply]
  unfold key
  refine Finset.sum_congr rfl fun k _ => ?_
  have el : lidx_main_v1 (ix3 b j i) k = ix3 b j k := funext fun a => Fin.ext (by
    match a with
    | ⟨0, _⟩ => rfl
    | ⟨1, _⟩ => rfl
    | ⟨2, _⟩ => rfl)
  have er : ridx_main_v1 (ix3 b j i) k = ix2 i k := funext fun a => Fin.ext (by
    match a with
    | ⟨0, _⟩ => rfl
    | ⟨1, _⟩ => rfl)
  rw [el, er]

theorem v_apply (b : Fin 4) (j : Fin 1024) (i : Fin 512) :
    val_main_v2 (F := Ideal) x1 x4 (ix3 b j i) = vlu x1 x4 b j i := by
  rw [val_main_v2_apply]
  unfold vlu
  refine Finset.sum_congr rfl fun k _ => ?_
  have el : lidx_main_v2 (ix3 b j i) k = ix3 b j k := funext fun a => Fin.ext (by
    match a with
    | ⟨0, _⟩ => rfl
    | ⟨1, _⟩ => rfl
    | ⟨2, _⟩ => rfl)
  have er : ridx_main_v2 (ix3 b j i) k = ix2 i k := funext fun a => Fin.ext (by
    match a with
    | ⟨0, _⟩ => rfl
    | ⟨1, _⟩ => rfl)
  rw [el, er]

/-! ## The heads split off and moved in front -/

/-- Position `(b, h, n, d)` of the head-major queries is inner column `64 h + d` of row `(b, n)`. -/
theorem q4_apply (b : Fin 4) (h : Fin 8) (n : Fin 2048) (d : Fin 64) :
    val_main_v4 (F := Ideal) x0 x2 (ix4 b h n d) = qry x0 x2 b n (hd h d) := by
  rw [val_main_v4_apply, val_main_v3_apply]
  have e : idx_main_v3 (idx_main_v4 (ix4 b h n d)) = ix3 b n (hd h d) := funext fun a => Fin.ext (by
    have hb := b.isLt; have hh := h.isLt; have hn := n.isLt; have hd' := d.isLt
    match a with
    | ⟨0, _⟩ => show (((b.val * 2048 + n.val) * 8 + h.val) * 64 + d.val) / 1048576 = b.val; omega
    | ⟨1, _⟩ => show (((b.val * 2048 + n.val) * 8 + h.val) * 64 + d.val) / 512 % 2048 = n.val; omega
    | ⟨2, _⟩ => show (((b.val * 2048 + n.val) * 8 + h.val) * 64 + d.val) % 512 = h.val * 64 + d.val; omega)
  rw [e]
  exact q_apply x0 x2 b n (hd h d)

theorem k6_apply (b : Fin 4) (h : Fin 8) (j : Fin 1024) (d : Fin 64) :
    val_main_v6 (F := Ideal) x1 x3 (ix4 b h j d) = key x1 x3 b j (hd h d) := by
  rw [val_main_v6_apply, val_main_v5_apply]
  have e : idx_main_v5 (idx_main_v6 (ix4 b h j d)) = ix3 b j (hd h d) := funext fun a => Fin.ext (by
    have hb := b.isLt; have hh := h.isLt; have hj := j.isLt; have hd' := d.isLt
    match a with
    | ⟨0, _⟩ => show (((b.val * 1024 + j.val) * 8 + h.val) * 64 + d.val) / 524288 = b.val; omega
    | ⟨1, _⟩ => show (((b.val * 1024 + j.val) * 8 + h.val) * 64 + d.val) / 512 % 1024 = j.val; omega
    | ⟨2, _⟩ => show (((b.val * 1024 + j.val) * 8 + h.val) * 64 + d.val) % 512 = h.val * 64 + d.val; omega)
  rw [e]
  exact k_apply x1 x3 b j (hd h d)

theorem v8_apply (b : Fin 4) (h : Fin 8) (j : Fin 1024) (d : Fin 64) :
    val_main_v8 (F := Ideal) x1 x4 (ix4 b h j d) = vlu x1 x4 b j (hd h d) := by
  rw [val_main_v8_apply, val_main_v7_apply]
  have e : idx_main_v7 (idx_main_v8 (ix4 b h j d)) = ix3 b j (hd h d) := funext fun a => Fin.ext (by
    have hb := b.isLt; have hh := h.isLt; have hj := j.isLt; have hd' := d.isLt
    match a with
    | ⟨0, _⟩ => show (((b.val * 1024 + j.val) * 8 + h.val) * 64 + d.val) / 524288 = b.val; omega
    | ⟨1, _⟩ => show (((b.val * 1024 + j.val) * 8 + h.val) * 64 + d.val) / 512 % 1024 = j.val; omega
    | ⟨2, _⟩ => show (((b.val * 1024 + j.val) * 8 + h.val) * 64 + d.val) % 512 = h.val * 64 + d.val; omega)
  rw [e]
  exact v_apply x1 x4 b j (hd h d)

/-! ## Scores and softmax -/

/-- The scaled score of key `j` for query `(b, n)` in head `h`. -/
def sc (b : Fin 4) (h : Fin 8) (n : Fin 2048) (j : Fin 1024) : EReal :=
  (∑ d : Fin 64, qry x0 x2 b n (hd h d) * key x1 x3 b j (hd h d)) * scale

theorem s_apply (b : Fin 4) (h : Fin 8) (n : Fin 2048) (j : Fin 1024) :
    val_main_v11 (F := Ideal) x0 x1 x2 x3 (ix4 b h n j) = sc x0 x1 x2 x3 b h n j := by
  rw [val_main_v11_apply, val_main_v9_apply, val_main_v10_apply, val_main_cst_apply]
  unfold sc
  show (∑ k : Fin 64, _) * scale = _
  refine congrArg (· * scale) (Finset.sum_congr rfl fun k _ => ?_)
  have el : lidx_main_v9 (ix4 b h n j) k = ix4 b h n k := funext fun a => Fin.ext (by
    match a with
    | ⟨0, _⟩ => rfl
    | ⟨1, _⟩ => rfl
    | ⟨2, _⟩ => rfl
    | ⟨3, _⟩ => rfl)
  have er : ridx_main_v9 (ix4 b h n j) k = ix4 b h j k := funext fun a => Fin.ext (by
    match a with
    | ⟨0, _⟩ => rfl
    | ⟨1, _⟩ => rfl
    | ⟨2, _⟩ => rfl
    | ⟨3, _⟩ => rfl)
  rw [el, er, q4_apply, k6_apply]

theorem reduces_last : S4x8x2048x1024.Reduces [3] S4x8x2048 := by decide

/-- The row's maximum: the fold of `max` from `-∞` over the row's scores. -/
theorem mx_apply (b : Fin 4) (h : Fin 8) (n : Fin 2048) :
    val_main_v14 (F := Ideal) x0 x1 x2 x3 (ix3 b h n)
      = Finset.univ.fold max ninf (fun j : Fin 1024 => sc x0 x1 x2 x3 b h n j) := by
  rw [val_main_v14_apply, val_main_v13_apply, val_main_cst_1_apply]
  have e12 : val_main_v12 (F := Ideal) x0 x1 x2 x3 (ix3 b h n)
      = Finset.univ.fold max ninf (fun j : Fin 1024 => sc x0 x1 x2 x3 b h n j) := by
    unfold val_main_v12
    rw [Host.reduce_eq_fold_single FloatOps.maximumf _ _ reducesTo_S4x8x2048x1024_S4x8x2048_d3 reduces_last h_S_]
    refine congrArg (fun f => Finset.fold max (ninf) f (Finset.univ : Finset (Fin 1024))) ?_
    refine funext fun (j : Fin 1024) => ?_
    have el : reduces_last.lift (ix3 b h n) j = ix4 b h n j := funext fun a => Fin.ext (by
      match a with
      | ⟨0, _⟩ => rfl
      | ⟨1, _⟩ => rfl
      | ⟨2, _⟩ => rfl
      | ⟨3, _⟩ => rfl)
    show val_main_v11 (F := Ideal) x0 x1 x2 x3 (reduces_last.lift (ix3 b h n) j) = _
    rw [el, s_apply]
  rw [e12]
  exact max_ninf_fold _

/-- An exponential of the softmax: `exp` of the score less the row's maximum. -/
def ex (b : Fin 4) (h : Fin 8) (n : Fin 2048) (j : Fin 1024) : EReal :=
  Ideal.exp (sc x0 x1 x2 x3 b h n j - Finset.univ.fold max ninf (fun j' : Fin 1024 => sc x0 x1 x2 x3 b h n j'))

theorem e_apply (b : Fin 4) (h : Fin 8) (n : Fin 2048) (j : Fin 1024) :
    val_main_v18 (F := Ideal) x0 x1 x2 x3 (ix4 b h n j) = ex x0 x1 x2 x3 b h n j := by
  rw [val_main_v18_apply, val_main_v17_apply, val_main_v16_apply, val_main_v15_apply]
  have e : idx_main_v15 (idx_main_v16 (ix4 b h n j)) = ix3 b h n := funext fun a => Fin.ext (by
    match a with
    | ⟨0, _⟩ => rfl
    | ⟨1, _⟩ => rfl
    | ⟨2, _⟩ => rfl)
  rw [e, mx_apply, s_apply]
  rfl

theorem l_apply (b : Fin 4) (h : Fin 8) (n : Fin 2048) :
    val_main_v19 (F := Ideal) x0 x1 x2 x3 (ix3 b h n) = ∑ j : Fin 1024, ex x0 x1 x2 x3 b h n j := by
  rw [val_main_v19_apply, val_main_cst_2_apply]
  show Ideal.ofBits .f32 0x00000000#32 + _ = _
  rw [Ideal.ofBits_zero_f32, zero_add]
  refine Finset.sum_congr rfl fun k _ => ?_
  have el : idx_main_v19 (ix3 b h n) k = ix4 b h n k := funext fun a => Fin.ext (by
    match a with
    | ⟨0, _⟩ => rfl
    | ⟨1, _⟩ => rfl
    | ⟨2, _⟩ => rfl
    | ⟨3, _⟩ => rfl)
  rw [el, e_apply]

theorem a_apply (b : Fin 4) (h : Fin 8) (n : Fin 2048) (j : Fin 1024) :
    val_main_v22 (F := Ideal) x0 x1 x2 x3 (ix4 b h n j)
      = Ideal.div (ex x0 x1 x2 x3 b h n j) (∑ j' : Fin 1024, ex x0 x1 x2 x3 b h n j') := by
  rw [val_main_v22_apply, val_main_v21_apply, val_main_v20_apply]
  have e : idx_main_v20 (idx_main_v21 (ix4 b h n j)) = ix3 b h n := funext fun a => Fin.ext (by
    match a with
    | ⟨0, _⟩ => rfl
    | ⟨1, _⟩ => rfl
    | ⟨2, _⟩ => rfl)
  rw [e, l_apply, e_apply]
  rfl

/-! ## The weighted values, the heads merged back, the output projection -/

theorem o_apply (b : Fin 4) (h : Fin 8) (n : Fin 2048) (d : Fin 64) :
    val_main_v23 (F := Ideal) x0 x1 x2 x3 x4 (ix4 b h n d)
      = softRow (fun j : Fin 1024 => sc x0 x1 x2 x3 b h n j) (fun j : Fin 1024 => vlu x1 x4 b j (hd h d)) := by
  rw [val_main_v23_apply]
  unfold softRow
  refine Finset.sum_congr rfl fun k _ => ?_
  have el : lidx_main_v23 (ix4 b h n d) k = ix4 b h n k := funext fun a => Fin.ext (by
    match a with
    | ⟨0, _⟩ => rfl
    | ⟨1, _⟩ => rfl
    | ⟨2, _⟩ => rfl
    | ⟨3, _⟩ => rfl)
  have er : ridx_main_v23 (ix4 b h n d) k = ix4 b h k d := funext fun a => Fin.ext (by
    match a with
    | ⟨0, _⟩ => rfl
    | ⟨1, _⟩ => rfl
    | ⟨2, _⟩ => rfl
    | ⟨3, _⟩ => rfl)
  rw [el, er, a_apply, v8_apply]
  rfl

/-- Inner column `64 h + d` of the merged head outputs is head `h`'s output at column `d`. -/
theorem o25_apply (b : Fin 4) (n : Fin 2048) (h : Fin 8) (d : Fin 64) :
    val_main_v25 (F := Ideal) x0 x1 x2 x3 x4 (ix3 b n (hd h d))
      = softRow (fun j : Fin 1024 => sc x0 x1 x2 x3 b h n j) (fun j : Fin 1024 => vlu x1 x4 b j (hd h d)) := by
  rw [val_main_v25_apply, val_main_v24_apply]
  have e : idx_main_v24 (idx_main_v25 (ix3 b n (hd h d))) = ix4 b h n d := funext fun a => Fin.ext (by
    have hb := b.isLt; have hh := h.isLt; have hn := n.isLt; have hd' := d.isLt
    match a with
    | ⟨0, _⟩ => show ((b.val * 2048 + n.val) * 512 + (h.val * 64 + d.val)) / 1048576 = b.val; omega
    | ⟨1, _⟩ => show ((b.val * 2048 + n.val) * 512 + (h.val * 64 + d.val)) / 64 % 8 = h.val; omega
    | ⟨2, _⟩ => show ((b.val * 2048 + n.val) * 512 + (h.val * 64 + d.val)) / 512 % 2048 = n.val; omega
    | ⟨3, _⟩ => show ((b.val * 2048 + n.val) * 512 + (h.val * 64 + d.val)) % 64 = d.val; omega)
  rw [e]
  exact o_apply x0 x1 x2 x3 x4 b h n d

/-- The reference's result at `(b, n, o)` is the attention formula there. -/
theorem result_apply' (b : Fin 4) (n : Fin 2048) (o : Fin 512) :
    val_main_v29 (F := Ideal) x0 x1 x2 x3 x4 x5 x6 (ix3 b n o) = out x0 x1 x2 x3 x4 x5 x6 b n o := by
  rw [val_main_v29_apply, val_main_v26_apply, val_main_v28_apply, val_main_v27_apply]
  have eb : idx_main_v27 (idx_main_v28 (ix3 b n o)) = ix1 o := funext fun a => Fin.ext (by
    match a with
    | ⟨0, _⟩ => rfl)
  rw [eb]
  unfold out koutRow
  show (∑ k : Fin 512, _) + x6 (ix1 o) = _
  refine congrArg (· + x6 (ix1 o)) ?_
  rw [sum_hd]
  refine Finset.sum_congr rfl fun h _ => Finset.sum_congr rfl fun d _ => ?_
  have el : lidx_main_v26 (ix3 b n o) (hd h d) = ix3 b n (hd h d) := funext fun a => Fin.ext (by
    match a with
    | ⟨0, _⟩ => rfl
    | ⟨1, _⟩ => rfl
    | ⟨2, _⟩ => rfl)
  have er : ridx_main_v26 (ix3 b n o) (hd h d) = ix2 o (hd h d) := funext fun a => Fin.ext (by
    match a with
    | ⟨0, _⟩ => rfl
    | ⟨1, _⟩ => rfl)
  rw [el, er, o25_apply]
  rfl

/-- The reference's result array is the attention formula's array. -/
theorem result_eq : val_main_v29 (F := Ideal) x0 x1 x2 x3 x4 x5 x6 = result x0 x1 x2 x3 x4 x5 x6 := by
  funext i
  obtain ⟨b, n, o, rfl⟩ : ∃ (b : Fin 4) (n : Fin 2048) (o : Fin 512), i = ix3 b n o := ⟨i 0, i 1, i 2, eq_ix3 i⟩
  rw [result_apply', Cert.Attn.result_apply]

end Cert.ReferenceIdeal.RefValue

end
-- ==== Proof.lean ====
/-
  A fused cross-attention kernel against its plain reference, over the extended reals.

  Both programs compute, for a batch `b`, a query position `n` and an output column `o`,

    out (b, n, o) = Σ over the 512 inner columns i of  O (b, n, i) · Wo (o, i)  +  bo (o),

  where the inner columns are eight heads of 64, and for head `h` and column `d` of it
  `O (b, n, 64 h + d) = Σ over keys m of  softmax_m ((q_h (b, n) · k_h (b, m)) / 8) · v (b, m, 64 h + d)`, with
  `q = x · Wqᵀ`, `k = context · Wkᵀ`, `v = context · Wvᵀ` (Proof/Spec.lean).

  The kernel's program is three kernels. The first two are the query projection and one fused key/value projection
  against the key and value weights laid side by side; each grid point multiplies a block of 1024 rows by the whole
  weight matrix (Proof/Blocks0.lean, Proof/Blocks1.lean). The third handles 512 query rows of one batch per grid
  point: for each head in turn it forms the scores, the row maxima, the exponentials, their row sums and the
  quotients, multiplies by the head's value columns and then by the head's 64 rows of the transposed output
  weights, and adds the eight results one after another onto a zero accumulator before adding the bias
  (Proof/HeadTerm.lean, Proof/Bodies.lean, Proof/Blocks2.lean). The reference contracts over all 512 inner columns at
  once after moving the head axis (Proof/RefValue.lean). The two agree because a sum over 512 columns is the double
  sum over eight heads of 64 columns, and an accumulator increased head by head from zero is the sum over the heads;
  every other step is the same operation on the same entries. No step needs the inputs to be finite: the sums are
  regrouped in a commutative monoid and the maxima are folds of `max`.

  Format changes are the identity on extended reals, so the kernel's reduced-precision intermediates do not enter.
  The frames of the two kernel programs and the run of the reference are the generated ones; the kernel's run is
  read once more with its result buffer named (Proof/KernelRun.lean) and its boundary contents walked back to the
  arguments (Proof/HostVals.lean, Proof/KernelValue.lean).
-/
import proofs.«105732_j13159779795222_2_alg».proof.Defs
import proofs.«105732_j13159779795222_2_alg».proof.Proof.Gen.Kernel
import proofs.«105732_j13159779795222_2_alg».proof.Proof.Gen.Kernel.Skeleton
import proofs.«105732_j13159779795222_2_alg».proof.Proof.Gen.Kernel.Launch
import proofs.«105732_j13159779795222_2_alg».proof.Proof.Gen.Kernel.Points
import proofs.«105732_j13159779795222_2_alg».proof.Proof.Gen.Kernel.Frame
import proofs.«105732_j13159779795222_2_alg».proof.Proof.Gen.KernelIdeal
import proofs.«105732_j13159779795222_2_alg».proof.Proof.Gen.KernelIdeal.Skeleton
import proofs.«105732_j13159779795222_2_alg».proof.Proof.Gen.KernelIdeal.Launch
import proofs.«105732_j13159779795222_2_alg».proof.Proof.Gen.KernelIdeal.Points
import proofs.«105732_j13159779795222_2_alg».proof.Proof.Gen.KernelIdeal.Frame
import proofs.«105732_j13159779795222_2_alg».proof.Proof.Gen.ReferenceIdeal
import proofs.«105732_j13159779795222_2_alg».proof.Proof.Gen.ReferenceIdeal.Run
import proofs.«105732_j13159779795222_2_alg».proof.Proof.Gen.ReferenceIdeal.Read
import proofs.«105732_j13159779795222_2_alg».proof.Proof.Gen.Pre_finite_inputs
import proofs.«105732_j13159779795222_2_alg».proof.Proof.KernelRun
import proofs.«105732_j13159779795222_2_alg».proof.Proof.KernelValue
import proofs.«105732_j13159779795222_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the attention formula's array of the argument arrays, which agree. -/
theorem algebraic : Cert.algebraic_KernelIdeal_ReferenceIdeal := by
  intro m ρ m' ρ' _ hagree
  refine ⟨fun c => Cert.Attn.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KernelValue.result_eq m ρ c), (h c).2⟩)
      (Cert.KernelIdeal.Run.run_named (F := Ideal) m ρ)
  · refine (θ_run Cert.ReferenceIdeal.defs _ _).mono (fun r h c => ⟨?_, (h c).2⟩)
      (Cert.ReferenceIdeal.Value.run (F := Ideal) m' ρ')
    have hv : r.2.mem ((c.tc : Thread Cert.ReferenceIdeal.nD Cert.ReferenceIdeal.τ).loc Cert.ReferenceIdeal.main_v29)
        = Cert.Attn.result
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)) :=
      ((h c).1.trans (Cert.ReferenceIdeal.Read.val_main_v29_eq m' c)).trans
        (Cert.ReferenceIdeal.RefValue.result_eq _ _ _ _ _ _ _)
    rw [hv, (hagree c).1, (hagree c).2.1, (hagree c).2.2.1, (hagree c).2.2.2.1, (hagree c).2.2.2.2.1,
      (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
